-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S40x128 : S_.BroadcastsInDim S40x128 (![] : Fin 0 → Fin S40x128.rank)
  reducesTo_S40x128_S_d0_1 : S40x128.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S40x128 .f32) (main_arg9 : FVec F S40 .f32) (main_v33 : IVec S_ 1) : IVec S_ 1 :=
  let main_v34 : FVec F S40x128 .f32 := Host.absf main_arg8
  let main_cst_12 : FVec F S_ .f32 := constant S_ .f32 0x7F800000#32
  let main_v35 : FVec F S40x128 .f32 := broadcastInDim S40x128 ![] bcast_S_S40x128 main_cst_12
  let main_v36 : IVec S40x128 1 := cmpf .olt main_v34 main_v35
  let main_c_13 : IVec S_ 1 := constantI S_ 1 1#1
  let main_v37 : IVec S_ 1 := (fun x v => Host.reduce IntOp.andi x v reducesTo_S40x128_S_d0_1 h_S_) main_v36 main_c_13
  let main_v38 : IVec S_ 1 := andi main_v33 main_v37
  let main_v39 : FVec F S40 .f32 := Host.absf main_arg9
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg5 : FVec F S128x128 .f32) (main_arg6 : FVec F S128 .f32) (main_arg7 : FVec F S128x128 .f32) (main_arg8 : FVec F S40x128 .f32) (main_arg9 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S40x128 .f32) (main_arg9 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S128x40 : Shape := ⟨2, ![128, 40]⟩
abbrev S1 : Shape := ⟨1, ![1]⟩
abbrev S1x128 : Shape := ⟨2, ![1, 128]⟩
abbrev S1x40 : Shape := ⟨2, ![1, 40]⟩
abbrev S1600000x128 : Shape := ⟨2, ![1600000, 128]⟩
abbrev S5000x128 : Shape := ⟨2, ![5000, 128]⟩
abbrev S5000x1 : Shape := ⟨2, ![5000, 1]⟩
abbrev S100000x40 : Shape := ⟨2, ![100000, 40]⟩

abbrev nBuf : Space → Nat
  | .hbm => 74
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S40x128, .f32⟩
  | .hbm, ⟨9, _⟩ => ⟨S40, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S128x128, .f32⟩
  | .hbm, ⟨28, _⟩ => ⟨S128x128, .f32⟩
  | .hbm, ⟨29, _⟩ => ⟨S128x128, .f32⟩
  | .hbm, ⟨30, _⟩ => ⟨S128x128, .f32⟩
  | .hbm, ⟨31, _⟩ => ⟨S_, .f32⟩
  | .hbm, ⟨32, _⟩ => ⟨S128x128, .f32⟩
  | .hbm, ⟨33, _⟩ => ⟨S128x40, .f32⟩
  | .hbm, ⟨34, _⟩ => ⟨S_, .i32⟩
  | .hbm, ⟨35, _⟩ => ⟨S1, .i32⟩
  | .hbm, ⟨36, _⟩ => ⟨S128x128, .f32⟩
  | .hbm, ⟨37, _⟩ => ⟨S_, .f32⟩
  | .hbm, ⟨38, _⟩ => ⟨S1x128, .f32⟩
  | .hbm, ⟨39, _⟩ => ⟨S1x40, .f32⟩
  | .hbm, ⟨40, _⟩ => ⟨S_, .i32⟩
  | .hbm, ⟨41, _⟩ => ⟨S1, .i32⟩
  | .hbm, ⟨42, _⟩ => ⟨S1x128, .f32⟩
  | .hbm, ⟨43, _⟩ => ⟨S1x128, .f32⟩
  | .hbm, ⟨44, _⟩ => ⟨S1x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S100000x128, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x128, .f32⟩
  | .hbm, ⟨68, _⟩ => ⟨S_, .f32⟩
  | .hbm, ⟨69, _⟩ => ⟨S100000x128, .f32⟩
  | .hbm, ⟨70, _⟩ => ⟨S1600000x1, .i32⟩
  | .hbm, ⟨71, _⟩ => ⟨S100000x128, .f32⟩
  | .hbm, ⟨72, _⟩ => ⟨S100000x128, .f32⟩
  | .hbm, ⟨73, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S128x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_c : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_c_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_9 : Ref sig .tc := ⟨.hbm, 59, rfl⟩
abbrev main_v38 : Ref sig .tc := ⟨.hbm, 60, rfl⟩
abbrev main_v39 : Ref sig .tc := ⟨.hbm, 61, rfl⟩
abbrev main_c_10 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_11 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  transposes_S128x128_S128x128_1_0 : S128x128.Transposes [1, 0] S128x128
  bcast_S_S128x128 : S_.BroadcastsInDim S128x128 (![] : Fin 0 → Fin S128x128.rank)
  transposes_S40x128_S128x40_1_0 : S40x128.Transposes [1, 0] S128x40
  bcast_S_S1 : S_.BroadcastsInDim S1 (![] : Fin 0 → Fin S1.rank)
  bcast_S_S1x128 : S_.BroadcastsInDim S1x128 (![] : Fin 0 → Fin S1x128.rank)
  shapeCasts_S40_S1x40 : S40.ShapeCasts S1x40
  shapeCasts_S128_S1x128 : S128.ShapeCasts S1x128
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S100000x128_S100000x40_0_0 : S100000x128.Slices ![0, 0] S100000x40
  scatter_S100000_S1600000x1_S1600000_n_0_0_1_wf : ScatterDims.WF S100000 S1600000x1 S1600000 [] [0] [0] 1
  scatter_S128x128_S1_S128x40_01_n_1_0_wf : ScatterDims.WF S128x128 S1 S128x40 [0, 1] [] [1] 0
  scatter_S1x128_S1_S1x40_01_n_1_0_wf : ScatterDims.WF S1x128 S1 S1x40 [0, 1] [] [1] 0
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x128.size a ≤ S100000x128.size a
  hwx1_8 : ∀ i : grid1.Coords, EltTy.bits .f32 = 32 ∨ (Rect.block (s := S100000x128) S5000x128.size (cc1_transform_8 i) (hinb1_8 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def scatter_S128x128_S1_S128x40_01_n_1_0 : ScatterDims S128x128 S1 S128x40 where
  updateWindowDims := [0, 1]
  insertedWindowDims := []
  scatterDimsToOperandDims := [1]
  indexVectorDim := 0
  wf := scatter_S128x128_S1_S128x40_01_n_1_0_wf
def scatter_S1x128_S1_S1x40_01_n_1_0 : ScatterDims S1x128 S1 S1x40 where
  updateWindowDims := [0, 1]
  insertedWindowDims := []
  scatterDimsToOperandDims := [1]
  indexVectorDim := 0
  wf := scatter_S1x128_S1_S1x40_01_n_1_0_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v36) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v37) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v16) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v20) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v24) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v48) S5000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S128x40 : Shape := ⟨2, ![128, 40]⟩
abbrev S100000x40 : Shape := ⟨2, ![100000, 40]⟩
abbrev S1x40 : Shape := ⟨2, ![1, 40]⟩

abbrev nBuf : Space → Nat
  | .hbm => 85
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S40x128, .f32⟩
  | .hbm, ⟨9, _⟩ => ⟨S40, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x128, .f32⟩
  | .hbm, ⟨35, _⟩ => ⟨S_, .f32⟩
  | .hbm, ⟨36, _⟩ => ⟨S100000x128, .f32⟩
  | .hbm, ⟨37, _⟩ => ⟨S1600000x1, .i32⟩
  | .hbm, ⟨38, _⟩ => ⟨S100000x128, .f32⟩
  | .hbm, ⟨39, _⟩ => ⟨S100000x1, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S100000x128, .f32⟩
  | .hbm, ⟨44, _⟩ => ⟨S1x128, .f32⟩
  | .hbm, ⟨45, _⟩ => ⟨S100000x128, .f32⟩
  | .hbm, ⟨46, _⟩ => ⟨S100000x128, .f32⟩
  | .hbm, ⟨47, _⟩ => ⟨S128x128, .f32⟩
  | .hbm, ⟨48, _⟩ => ⟨S100000x128, .f32⟩
  | .hbm, ⟨49, _⟩ => ⟨S100000x128, .f32⟩
  | .hbm, ⟨50, _⟩ => ⟨S_, .f32⟩
  | .hbm, ⟨51, _⟩ => ⟨S100000x128, .f32⟩
  | .hbm, ⟨52, _⟩ => ⟨S100000x128, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x128, .f32⟩
  | .hbm, ⟨62, _⟩ => ⟨S_, .f32⟩
  | .hbm, ⟨63, _⟩ => ⟨S100000x128, .f32⟩
  | .hbm, ⟨64, _⟩ => ⟨S1600000x1, .i32⟩
  | .hbm, ⟨65, _⟩ => ⟨S100000x128, .f32⟩
  | .hbm, ⟨66, _⟩ => ⟨S100000x1, .f32⟩
  | .hbm, ⟨67, _⟩ => ⟨S100000x128, .f32⟩
  | .hbm, ⟨68, _⟩ => ⟨S100000x128, .f32⟩
  | .hbm, ⟨69, _⟩ => ⟨S128x128, .f32⟩
  | .hbm, ⟨70, _⟩ => ⟨S100000x128, .f32⟩
  | .hbm, ⟨71, _⟩ => ⟨S1x128, .f32⟩
  | .hbm, ⟨72, _⟩ => ⟨S100000x128, .f32⟩
  | .hbm, ⟨73, _⟩ => ⟨S100000x128, .f32⟩
  | .hbm, ⟨74, _⟩ => ⟨S128x128, .f32⟩
  | .hbm, ⟨75, _⟩ => ⟨S100000x128, .f32⟩
  | .hbm, ⟨76, _⟩ => ⟨S100000x128, .f32⟩
  | .hbm, ⟨77, _⟩ => ⟨S_, .f32⟩
  | .hbm, ⟨78, _⟩ => ⟨S100000x128, .f32⟩
  | .hbm, ⟨79, _⟩ => ⟨S100000x128, .f32⟩
  | .hbm, ⟨80, _⟩ => ⟨S128x40, .f32⟩
  | .hbm, ⟨81, _⟩ => ⟨S100000x40, .f32⟩
  | .hbm, ⟨82, _⟩ => ⟨S1x40, .f32⟩
  | .hbm, ⟨83, _⟩ => ⟨S100000x40, .f32⟩
  | .hbm, ⟨84, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call0_cst : Ref sig .tc := ⟨.hbm, 50, rfl⟩
abbrev main_call0_v0 : Ref sig .tc := ⟨.hbm, 51, rfl⟩
abbrev main_v33 : Ref sig .tc := ⟨.hbm, 52, rfl⟩
abbrev main_c_5 : Ref sig .tc := ⟨.hbm, 53, rfl⟩
abbrev main_v34 : Ref sig .tc := ⟨.hbm, 54, rfl⟩
abbrev main_v35 : Ref sig .tc := ⟨.hbm, 55, rfl⟩
abbrev main_c_6 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_7 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_call1_cst : Ref sig .tc := ⟨.hbm, 77, rfl⟩
abbrev main_call1_v0 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S40x128_S128x40_1_0 : S40x128.Transposes [1, 0] S128x40
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.KernelRun.lean ====
/-
  The idealized kernel's run with every buffer named.

  The program is five segments in order: host operations, the first dense layer's pipeline, host operations, the
  second layer's pipeline with the classifier, and the final slice.  The contents of the TensorCore's buffers at each
  boundary are a fold from the launch memory (`W0 … W5` of the frame module): a stretch of host operations maps the
  contents by its composed function, a pipeline replaces its arrays by what its write-backs leave.  Run from any memory
  with zero counters, every weakly fair execution terminates without a fault, and EVERY buffer outside the pipelines'
  staging memory ends at the last boundary's contents `W5` — the arguments, which nothing writes, and the result, whose
  contents the later modules read back through the fold.
-/
import proofs.«118277_j74345883894183_2_alg».proof.Proof.KernelIdealFrameP

noncomputable section

namespace Cert.Sage.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every unscoped buffer of every core at
    the contents the fold through the five segments gives it. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- A buffer outside the staging memory, read in a final state of the run. -/
theorem read_final {r : PUnit × MemSt nD τ sig (Elt F)}
    (h : ∀ c : Dev nD, ∀ b ∈ Pipeline.ucRefs τ sig, r.2.mem (((c : Thread nD τ)).1, b) = W5 m ρ c b)
    (c : Dev nD) (b : Ref sig .tc) (hb : ¬ (Proc.devRef .tc b : DevRef τ sig).isScoped) :
    r.2.mem ((c.tc : Thread nD τ).loc b) = W5 m ρ c (Proc.devRef .tc b) :=
  h c _ (mem_uc b hb)

end Cert.Sage.Run

end
-- ==== Proof.HostReads.lean ====
/-
  What the kernel's host operations leave in the buffers its pipelines read.

  Both programs prepare the same things on the host from the same arguments: the two rows of the edge list, the
  reciprocal clamped in-degree, the sum over incoming edges of the source rows (a gather of rows followed by an
  accumulating scatter), and the transposed weights.  So the kernel's buffers after its first stretch of host
  operations are stated here as the reference's own stages of the same arguments; the two texts differ only in the
  name of the program they were printed in.  The kernel also keeps the degree as a column and each bias as a row by a
  reshape, and pads the classifier to 128 columns by writing it into a zero array.

  Everything is stated for an arbitrary valuation of the buffers: a stretch of host operations is a function of the
  contents it starts from.
-/
import proofs.«118277_j74345883894183_2_alg».proof.Proof.KernelIdealLaunchP
import proofs.«118277_j74345883894183_2_alg».proof.Proof.Gen.ReferenceIdeal.Read

noncomputable section

namespace Cert.Sage.Reads

open Idealize.ShloMosaic Idealize.ShloMosaic.TcCoe Idealize.SL.Sem Idealize.ShloMosaic.StableHlo
open Cert.KernelIdeal Cert.KernelIdeal.Gen Cert.KernelIdeal.GenP
open Cert.ReferenceIdeal.Read (val_main_v1 val_main_v3 val_main_v11 val_main_v21 val_main_v25 val_main_v30 val_main_v47
  val_main_v52 val_main_v56)

/-- The sum over incoming edges of the rows of `H` at the edges' sources: rows gathered at the source numbers
    (a negative number counted from the end), accumulated at the destination numbers into a zero array. -/
def aggOf (H : (⟨S100000x128, .f32⟩ : BufTy).Contents (Elt Ideal)) (s t : (⟨S1600000, .i32⟩ : BufTy).Contents (Elt Ideal)) :
    (⟨S100000x128, .f32⟩ : BufTy).Contents (Elt Ideal) :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 t)
    (Host.gather gather_S100000x128_S1600000x1_S1600000x128_1_0_n_n_0_1_1128 H
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

/-- The classifier's transposed weights written into the first 40 columns of a zero [128, 128] array. -/
def padW (T : (⟨S128x40, .f32⟩ : BufTy).Contents (Elt Ideal)) : (⟨S128x128, .f32⟩ : BufTy).Contents (Elt Ideal) :=
  Host.scatter scatter_S128x128_S1_S128x40_01_n_1_0 (fun _ b => b)
    (broadcastInDim S128x128 ![] bcast_S_S128x128 (constant (F := Ideal) S_ .f32 0x00000000#32))
    (broadcastInDim S1 ![] bcast_S_S1 (constantI S_ 32 0#32)) T

/-- The classifier's bias, as a row, written into the first 40 columns of a zero [1, 128] row. -/
def padB (u : (⟨S1x40, .f32⟩ : BufTy).Contents (Elt Ideal)) : (⟨S1x128, .f32⟩ : BufTy).Contents (Elt Ideal) :=
  Host.scatter scatter_S1x128_S1_S1x40_01_n_1_0 (fun _ b => b)
    (broadcastInDim S1x128 ![] bcast_S_S1x128 (constant (F := Ideal) S_ .f32 0x00000000#32))
    (broadcastInDim S1 ![] bcast_S_S1 (constantI S_ 32 0#32)) u

variable (W : Valuation τ sig (Elt Ideal))

/-! ## After the first stretch -/

theorem pre_v1 : after hostOps0 W (Proc.devRef .tc main_v1) = val_main_v1 (F := Ideal) (W (Proc.devRef .tc main_arg1)) := by
  dsimp only [hostOps0]; after_results_simp; rfl

theorem pre_v3 : after hostOps0 W (Proc.devRef .tc main_v3) = val_main_v3 (F := Ideal) (W (Proc.devRef .tc main_arg1)) := by
  dsimp only [hostOps0]; after_results_simp; rfl

theorem pre_arg0 : after hostOps0 W (Proc.devRef .tc main_arg0) = W (Proc.devRef .tc main_arg0) := by
  dsimp only [hostOps0]; after_results_simp

theorem pre_v12 : after hostOps0 W (Proc.devRef .tc main_v12)
    = shapeCast S100000x1 (val_main_v11 (F := Ideal) (W (Proc.devRef .tc main_arg1))) shapeCasts_S100000_S100000x1 := by
  dsimp only [hostOps0]; after_results_simp; rfl

theorem pre_v13 : after hostOps0 W (Proc.devRef .tc main_v13) = val_main_v25 (F := Ideal) (W (Proc.devRef .tc main_arg2)) := by
  dsimp only [hostOps0]; after_results_simp; rfl

theorem pre_v14 : after hostOps0 W (Proc.devRef .tc main_v14) = val_main_v30 (F := Ideal) (W (Proc.devRef .tc main_arg4)) := by
  dsimp only [hostOps0]; after_results_simp; rfl

theorem pre_v15 : after hostOps0 W (Proc.devRef .tc main_v15) = val_main_v47 (F := Ideal) (W (Proc.devRef .tc main_arg5)) := by
  dsimp only [hostOps0]; after_results_simp; rfl

theorem pre_v16 : after hostOps0 W (Proc.devRef .tc main_v16) = val_main_v52 (F := Ideal) (W (Proc.devRef .tc main_arg7)) := by
  dsimp only [hostOps0]; after_results_simp; rfl

theorem pre_v25 : after hostOps0 W (Proc.devRef .tc main_v25)
    = shapeCast S1x128 (W (Proc.devRef .tc main_arg3)) shapeCasts_S128_S1x128 := by
  dsimp only [hostOps0]; after_results_simp; rfl

theorem pre_v26 : after hostOps0 W (Proc.devRef .tc main_v26)
    = shapeCast S1x128 (W (Proc.devRef .tc main_arg6)) shapeCasts_S128_S1x128 := by
  dsimp only [hostOps0]; after_results_simp; rfl

theorem pre_v20 : after hostOps0 W (Proc.devRef .tc main_v20) = padW (val_main_v56 (F := Ideal) (W (Proc.devRef .tc main_arg8))) := by
  dsimp only [hostOps0]; after_results_simp; rfl

theorem pre_v24 : after hostOps0 W (Proc.devRef .tc main_v24)
    = padB (shapeCast S1x40 (W (Proc.devRef .tc main_arg9)) shapeCasts_S40_S1x40) := by
  dsimp only [hostOps0]; after_results_simp; rfl

theorem pre_v36 : after hostOps0 W (Proc.devRef .tc main_v36)
    = aggOf (W (Proc.devRef .tc main_arg0)) (val_main_v1 (F := Ideal) (W (Proc.devRef .tc main_arg1)))
        (val_main_v3 (F := Ideal) (W (Proc.devRef .tc main_arg1))) := by
  dsimp only [hostOps0]; after_results_simp; rfl

/-- The neighbour sum of the arguments' features is the reference's stage of them. -/
theorem aggOf_arg (x0 : (⟨S100000x128, .f32⟩ : BufTy).Contents (Elt Ideal)) (x1 : (⟨S2x1600000, .i32⟩ : BufTy).Contents (Elt Ideal)) :
    aggOf x0 (val_main_v1 (F := Ideal) x1) (val_main_v3 (F := Ideal) x1) = val_main_v21 (F := Ideal) x0 x1 := rfl

/-! ## After the second stretch (between the two pipelines) -/

theorem mid_v47 : after hostOps1 W (Proc.devRef .tc main_v47)
    = aggOf (W (Proc.devRef .tc main_v37)) (W (Proc.devRef .tc main_v1)) (W (Proc.devRef .tc main_v3)) := by
  dsimp only [hostOps1]; after_results_simp; rfl

theorem mid_kept (b : Ref sig .tc)
    (hb : b = main_v37 ∨ b = main_v12 ∨ b = main_v15 ∨ b = main_v16 ∨ b = main_v26 ∨ b = main_v20 ∨ b = main_v24) :
    after hostOps1 W (Proc.devRef .tc b) = W (Proc.devRef .tc b) := by
  rcases hb with rfl | rfl | rfl | rfl | rfl | rfl | rfl <;> (dsimp only [hostOps1]; after_results_simp)

/-! ## After the last stretch -/

theorem post_v49 : after hostOps2 W (Proc.devRef .tc main_v49)
    = extractStridedSlice S100000x40 ![0, 0] (W (Proc.devRef .tc main_v48)) slices_S100000x128_S100000x40_0_0 := by
  dsimp only [hostOps2]; after_results_simp

end Cert.Sage.Reads

end
-- ==== Proof.LibPlainDot.lean ====
/-
  A plain matrix product read at an entry. For the dimension numbers of `M×K` by `K×N` with no batch axis
  (`DotDims.plain M K N`: the left operand contracted on its columns, the right on its rows), the sum over
  the one-axis contraction index of any function of the two operand indices is the sum over `k : Fin K` of
  that function at `(p, k)` and `(k, c)` (`sum_plain`). Hence, on the extended reals, a `tpu.matmul` into
  the zero accumulator and a host `dot_general`, read at `(p, c)`, are both `∑ k, A (p, k) * B (k, c)`
  (`matmul_plain_zero_apply`, `dotGeneral_plain_apply`), for every `M`, `K`, `N`.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

variable {M K N : Nat}

/-- The left operand's index at output `(p, c)` and contraction coordinate `k` is `(p, k)`. -/
theorem lhsIdx_plain (p : Fin M) (c : Fin N) (k : Fin K) :
    (DotDims.plain M K N).lhsIdx (ix2 p c) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p c) _).trans hk

/-- The right operand's index at output `(p, c)` and contraction coordinate `k` is `(k, c)`. -/
theorem rhsIdx_plain (p : Fin M) (c : Fin N) (k : Fin K) :
    (DotDims.plain M K N).rhsIdx (ix2 p c) ((contrEquiv1 (DotDims.plain M K N) K rfl rfl).symm k) = ix2 k c := by
  have hk := contrEquiv1_symm_val (DotDims.plain M K N) K rfl rfl k
  funext a
  apply Fin.ext
  match a with
  | ⟨0, _⟩ => exact ((DotDims.plain M K N).rhsIdx_val_of_single rfl (ix2 p c) _).trans hk
  | ⟨1, _⟩ => rfl

/-- A sum over the contraction index of a plain product's dimension numbers, of any function of the two
    operand indices, is the sum over the shared axis's coordinate. -/
theorem sum_plain {β : Type*} [AddCommMonoid β]
    (f : (⟨2, ![M, K]⟩ : Shape).Idx → (⟨2, ![K, N]⟩ : Shape).Idx → β) (p : Fin M) (c : Fin N) :
    ∑ q : (DotDims.plain M K N).contr.Idx,
        f ((DotDims.plain M K N).lhsIdx (ix2 p c) q) ((DotDims.plain M K N).rhsIdx (ix2 p c) q)
      = ∑ k : Fin K, f (ix2 p k) (ix2 k c) := by
  rw [← Equiv.sum_comp (contrEquiv1 (DotDims.plain M K N) K rfl rfl).symm]
  refine Finset.sum_congr rfl fun k _ => ?_
  rw [lhsIdx_plain, rhsIdx_plain]

/-- On the extended reals a `tpu.matmul` of `A : M×K` and `B : K×N` into the zero accumulator, read at
    `(p, c)`, is `∑ k, A (p, k) * B (k, c)`. -/
theorem matmul_plain_zero_apply {φ₁ φ₂ : FTy} (prec : Option ContractPrecision)
    (A : FVec Ideal ⟨2, ![M, K]⟩ φ₁) (B : FVec Ideal ⟨2, ![K, N]⟩ φ₂) (p : Fin M) (c : Fin N) :
    FloatOps.matmul (DotDims.plain M K N) prec A B (constant ⟨2, ![M, N]⟩ .f32 0x00000000#32) (ix2 p c)
      = ∑ k : Fin K, A (ix2 p k) * B (ix2 k c) :=
  (Ideal.matmul_constant_zero_apply (DotDims.plain M K N) prec A B (ix2 p c)).trans
    (sum_plain (fun i j => A i * B j) p c)

/-- On the extended reals a host `dot_general` of `A : M×K` and `B : K×N`, read at `(p, c)`, is the
    same sum, whatever the schedule. -/
theorem dotGeneral_plain_apply {φ₁ φ₂ : FTy} (prec : Option ContractPrecision) (sched : HostSchedule)
    (A : FVec Ideal ⟨2, ![M, K]⟩ φ₁) (B : FVec Ideal ⟨2, ![K, N]⟩ φ₂) (p : Fin M) (c : Fin N) :
    FloatOps.dotGeneral (DotDims.plain M K N) prec sched A B (ix2 p c)
      = ∑ k : Fin K, A (ix2 p k) * B (ix2 k c) :=
  (Ideal.dotGeneral_apply (DotDims.plain M K N) prec sched A B (ix2 p c)).trans
    (sum_plain (fun i j => A i * B j) p c)

end Cert.Lib.PlainDot

end
-- ==== Proof.LibKeepdims.lean ====
/-
  Layout operations of a row reduction that keeps its axis, read at an index given by coordinates: a vector
  [a] cast to a column [a, 1]; a column [a, 1] broadcast over b lanes to [a, b]; the index a reduction over the
  last axis of a matrix puts back; and the float sum over a matrix's last axis, at exact arithmetic, as the sum
  of a row. Each is the library's general lemma with the per-axis arithmetic discharged for these shapes.
-/
import Idealize.ShloMosaic.Lib.ValueLayout
import Idealize.ShloMosaic.PureOps.Ideal.Laws

namespace Cert.Lib.Keepdims

open Idealize.ShloMosaic Idealize.ShloMosaic.ValueIdx

variable {α : Type}

/-- An [a] array cast to the column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast over b lanes to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a reduction over a matrix's last axis puts back over row p, at coordinate k, is (p, k). -/
theorem lift_lastAxis {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A float sum over a matrix's last axis from the zero word, at exact arithmetic, is at row p the sum of that
    row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_lastAxis h p k)

end Cert.Lib.Keepdims
-- ==== Proof.KernelPayloads.lean ====
/-
  The two kernel bodies' stored values, read at an entry of the block, on the extended reals.

  The first body stores, at row r and column c of its block,
    max ((Σ_k (A(r,k) · d(r,0)) · Wl(k,c)) + (Σ_k X(r,k) · Wr(k,c)) + b(0,c)) 0,
  the second stores the classifier applied to that value with its own weights:
    (Σ_j max (…at column j…) 0 · Wc(j,c)) + bc(0,c).
  Each pointwise operation reads at an index by definition; a change of float format is the identity on the
  extended reals; a cast to the same shape is the identity; a column broadcast over the lanes reads the column's
  row, a row broadcast over the rows reads the row's column; a matrix product into the zero accumulator is the
  sum over the shared axis.
-/
import proofs.«118277_j74345883894183_2_alg».proof.Proof.Gen.KernelIdeal.Skeleton
import proofs.«118277_j74345883894183_2_alg».proof.Proof.LibPlainDot
import proofs.«118277_j74345883894183_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Sage.Body

open Idealize.ShloMosaic Idealize.ShloMosaic.ValueIdx Cert.KernelIdeal Cert.KernelIdeal.Gen

/-- The printed dimension numbers of the three products are those of a plain 5000×128 by 128×128 product. -/
theorem dot_eq : dot_S5000x128_S128x128_S5000x128_1_0_0_1_n_n = DotDims.plain 5000 128 128 := rfl

/-- The neighbour block scaled row by row by the column, at (r, k). -/
theorem scaled_apply (v0 : FVec Ideal S5000x128 .f32) (v2 : FVec Ideal S5000x1 .f32)
    (h0 : S5000x128.ShapeCasts S5000x128) (h2 : S5000x1.ShapeCasts S5000x1) (hb : S5000x1.Broadcasts S5000x128)
    (r : Fin 5000) (k : Fin 128) :
    mulf (F := Ideal) (φ := .f32) (shapeCast S5000x128 v0 h0) (broadcastTo S5000x128 (shapeCast S5000x1 v2 h2) hb) (ix2 r k)
      = v0 (ix2 r k) * v2 (ix2 r (0 : Fin 1)) := by
  rw [shapeCast_self, shapeCast_self, mulf_apply]
  exact congrArg (v0 (ix2 r k) * ·) (Cert.Lib.Keepdims.broadcastTo_a1_ab_apply v2 hb r k)

/-- One product into the zero accumulator, at (r, c): the sum over the shared axis. -/
theorem product_apply {φ₁ φ₂ : FTy} (A : FVec Ideal S5000x128 φ₁) (B : FVec Ideal S128x128 φ₂) (r : Fin 5000) (c : Fin 128) :
    matmul (F := Ideal) dot_S5000x128_S128x128_S5000x128_1_0_0_1_n_n none A B (constant (F := Ideal) S5000x128 .f32 0x00000000#32) (ix2 r c)
      = ∑ k : Fin 128, A (ix2 r k) * B (ix2 k c) := by
  rw [dot_eq]
  exact Cert.Lib.PlainDot.matmul_plain_zero_apply none A B r c

/-- The bias row broadcast over the rows, at (r, c). -/
theorem bias_apply (v18 : FVec Ideal S1x128 .f32) (h : S1x128.ShapeCasts S1x128) (hb : S1x128.Broadcasts S5000x128)
    (r : Fin 5000) (c : Fin 128) :
    broadcastTo S5000x128 (shapeCast S1x128 v18 h) hb (ix2 r c) = v18 (ix2 (0 : Fin 1) c) := by
  rw [shapeCast_self]
  exact broadcastTo_1b_ab_apply v18 hb r c

/-- The first body's stored value at (r, c): the layer's entry over the loaded blocks. -/
theorem k0_pay1_apply (v0 v7 : Vec Ideal S5000x128 .f32) (v2 : Vec Ideal S5000x1 .f32) (v9 v12 : Vec Ideal S128x128 .f32) (v18 : Vec Ideal S1x128 .f32) (r : Fin 5000) (c : Fin 128) :
    k0_pay1 (F := Ideal) v0 v2 v7 v9 v12 v18 (ix2 r c)
      = max ((∑ k : Fin 128, (v0 (ix2 r k) * v2 (ix2 r (0 : Fin 1))) * v9 (ix2 k c)) + (∑ k : Fin 128, v7 (ix2 r k) * v12 (ix2 k c)) + v18 (ix2 (0 : Fin 1) c)) 0 := by
  unfold k0_pay1
  refine (maximumf_apply (φ := .f32) _ _ _).trans ?_
  refine congrArg₂ max ?_ ?_
  · refine (addf_apply (φ := .f32) _ _ _).trans ?_
    refine congrArg₂ (· + ·) ?_ (bias_apply v18 _ _ r c)
    refine (addf_apply (φ := .f32) _ _ _).trans ?_
    refine congrArg₂ (· + ·) ?_ ?_
    · refine (product_apply _ _ r c).trans ?_
      refine Finset.sum_congr rfl fun k _ => ?_
      refine congrArg₂ (· * ·) ?_ ?_
      · exact scaled_apply v0 v2 _ _ _ r k
      · rw [shapeCast_self]; rfl
    · refine (product_apply _ _ r c).trans ?_
      refine Finset.sum_congr rfl fun k _ => ?_
      refine congrArg₂ (· * ·) rfl ?_
      rw [shapeCast_self]; rfl
  · exact Ideal.ofBits_zero_f32

/-- The second body's stored value at (r, c): the classifier's entry over the layer's row r of the loaded blocks. -/
theorem k1_pay1_apply (v0 v7 : Vec Ideal S5000x128 .f32) (v2 : Vec Ideal S5000x1 .f32) (v10 v13 v26 : Vec Ideal S128x128 .f32) (v19 v30 : Vec Ideal S1x128 .f32) (r : Fin 5000) (c : Fin 128) :
    k1_pay1 (F := Ideal) v0 v2 v7 v10 v13 v19 v26 v30 (ix2 r c)
      = (∑ j : Fin 128, max ((∑ k : Fin 128, (v0 (ix2 r k) * v2 (ix2 r (0 : Fin 1))) * v10 (ix2 k j)) + (∑ k : Fin 128, v7 (ix2 r k) * v13 (ix2 k j)) + v19 (ix2 (0 : Fin 1) j)) 0 * v26 (ix2 j c)) + v30 (ix2 (0 : Fin 1) c) := by
  unfold k1_pay1
  refine (addf_apply (φ := .f32) _ _ _).trans ?_
  refine congrArg₂ (· + ·) ?_ (bias_apply v30 _ _ r c)
  refine (product_apply _ _ r c).trans ?_
  refine Finset.sum_congr rfl fun j _ => ?_
  refine congrArg₂ (· * ·) ?_ ?_
  · refine (truncf_apply (φ := .f32) (ψ := .bf16) _ _ _).trans ?_
    refine (maximumf_apply (φ := .f32) _ _ _).trans ?_
    refine congrArg₂ max ?_ ?_
    · refine (addf_apply (φ := .f32) _ _ _).trans ?_
      refine congrArg₂ (· + ·) ?_ (bias_apply v19 _ _ r j)
      refine (addf_apply (φ := .f32) _ _ _).trans ?_
      refine congrArg₂ (· + ·) ?_ ?_
      · refine (product_apply _ _ r j).trans ?_
        refine Finset.sum_congr rfl fun k _ => ?_
        refine congrArg₂ (· * ·) ?_ ?_
        · exact scaled_apply v0 v2 _ _ _ r k
        · rw [shapeCast_self]; rfl
      · refine (product_apply _ _ r j).trans ?_
        refine Finset.sum_congr rfl fun k _ => ?_
        refine congrArg₂ (· * ·) ?_ ?_
        · rw [shapeCast_self]; rfl
        · rw [shapeCast_self]; rfl
    · exact Ideal.ofBits_zero_f32
  · rw [shapeCast_self]; rfl

end Cert.Sage.Body

end
-- ==== Proof.Spec.lean ====
/-
  The network both programs compute, as functions of whole arrays on the extended reals.

  A node's hidden row after one mean-aggregation layer: the neighbour sum `A` scaled row by row by the
  reciprocal degree `d` (held as a column), times the neighbour weights, plus the node's own features times the
  root weights, plus the bias (held as a row), clamped below at zero:

    hidden A X d Wl Wr b (p, c) = max ((Σ_k (A(p,k) · d(p,0)) · Wl(k,c)) + (Σ_k X(p,k) · Wr(k,c)) + b(0,c)) 0.

  The classifier on top of a hidden array: `logits H Wc bc (p, c) = (Σ_k H(p,k) · Wc(k,c)) + bc(0,c)`, for any
  number `C` of output columns.  Addition and finite sums on the extended reals are commutative and associative
  without side conditions, which is all that joins the two programs' orders of summation; no distributivity
  or cancellation is used, so no finiteness is needed.
-/
import Idealize.ShloMosaic.PureOps.Ideal
import Idealize.ShloMosaic.Lib.ValueIdx

noncomputable section

open scoped BigOperators

namespace Cert.Sage

open Idealize.ShloMosaic Idealize.ShloMosaic.ValueIdx

/-- Node features, a column per node, square weights, a bias row. -/
abbrev Nodes : Shape := ⟨2, ![100000, 128]⟩
abbrev Col : Shape := ⟨2, ![100000, 1]⟩
abbrev Wts : Shape := ⟨2, ![128, 128]⟩
abbrev Row : Shape := ⟨2, ![1, 128]⟩

/-- One entry of a layer before the clamp, in the order: neighbour product, plus root product, plus bias. -/
def preAt (A X : Nodes.Idx → EReal) (d : Col.Idx → EReal) (Wl Wr : Wts.Idx → EReal) (b : Row.Idx → EReal)
    (p : Fin 100000) (c : Fin 128) : EReal :=
  (∑ k : Fin 128, (A (ix2 p k) * d (ix2 p (0 : Fin 1))) * Wl (ix2 k c))
    + (∑ k : Fin 128, X (ix2 p k) * Wr (ix2 k c)) + b (ix2 (0 : Fin 1) c)

/-- One entry of a layer. -/
def hiddenAt (A X : Nodes.Idx → EReal) (d : Col.Idx → EReal) (Wl Wr : Wts.Idx → EReal) (b : Row.Idx → EReal)
    (p : Fin 100000) (c : Fin 128) : EReal :=
  max (preAt A X d Wl Wr b p c) 0

/-- The layer as a whole array. -/
def hidden (A X : Nodes.Idx → EReal) (d : Col.Idx → EReal) (Wl Wr : Wts.Idx → EReal) (b : Row.Idx → EReal) :
    Nodes.Idx → EReal :=
  fun i => hiddenAt A X d Wl Wr b (i 0) (i 1)

theorem hidden_apply (A X : Nodes.Idx → EReal) (d : Col.Idx → EReal) (Wl Wr : Wts.Idx → EReal) (b : Row.Idx → EReal)
    (p : Fin 100000) (c : Fin 128) : hidden A X d Wl Wr b (ix2 p c) = hiddenAt A X d Wl Wr b p c := rfl

/-- One entry of the classifier with `C` output columns. -/
def logitsAt {C : Nat} (H : Nodes.Idx → EReal) (Wc : (⟨2, ![128, C]⟩ : Shape).Idx → EReal)
    (bc : (⟨2, ![1, C]⟩ : Shape).Idx → EReal) (p : Fin 100000) (c : Fin C) : EReal :=
  (∑ k : Fin 128, H (ix2 p k) * Wc (ix2 k c)) + bc (ix2 (0 : Fin 1) c)

/-- The classifier as a whole array. -/
def logits {C : Nat} (H : Nodes.Idx → EReal) (Wc : (⟨2, ![128, C]⟩ : Shape).Idx → EReal)
    (bc : (⟨2, ![1, C]⟩ : Shape).Idx → EReal) : (⟨2, ![100000, C]⟩ : Shape).Idx → EReal :=
  fun i => logitsAt H Wc bc (i 0) (i 1)

theorem logits_apply {C : Nat} (H : Nodes.Idx → EReal) (Wc : (⟨2, ![128, C]⟩ : Shape).Idx → EReal)
    (bc : (⟨2, ![1, C]⟩ : Shape).Idx → EReal) (p : Fin 100000) (c : Fin C) :
    logits H Wc bc (ix2 p c) = logitsAt H Wc bc p c := rfl

/-- The same entry with the bias added before the root product: the two orders agree, since addition on the
    extended reals is commutative and associative. -/
theorem preAt_bias_first (A X : Nodes.Idx → EReal) (d : Col.Idx → EReal) (Wl Wr : Wts.Idx → EReal) (b : Row.Idx → EReal)
    (p : Fin 100000) (c : Fin 128) :
    (∑ k : Fin 128, (A (ix2 p k) * d (ix2 p (0 : Fin 1))) * Wl (ix2 k c)) + b (ix2 (0 : Fin 1) c)
        + (∑ k : Fin 128, X (ix2 p k) * Wr (ix2 k c))
      = preAt A X d Wl Wr b p c := by
  unfold preAt
  exact add_right_comm _ _ _

/-- A classifier whose weights and bias are zero-padded from `C` to 128 columns agrees, on the first `C` columns,
    with the unpadded one: only the padded arrays' entries in those columns are read. -/
theorem logitsAt_padded {C : Nat} (hC : C ≤ 128) (H : Nodes.Idx → EReal)
    (Wp : Wts.Idx → EReal) (bp : Row.Idx → EReal)
    (Wc : (⟨2, ![128, C]⟩ : Shape).Idx → EReal) (bc : (⟨2, ![1, C]⟩ : Shape).Idx → EReal)
    (hW : ∀ (k : Fin 128) (c : Fin C), Wp (ix2 k (Fin.castLE hC c)) = Wc (ix2 k c))
    (hb : ∀ c : Fin C, bp (ix2 (0 : Fin 1) (Fin.castLE hC c)) = bc (ix2 (0 : Fin 1) c))
    (p : Fin 100000) (c : Fin C) :
    logitsAt (C := 128) H Wp bp p (Fin.castLE hC c) = logitsAt H Wc bc p c := by
  unfold logitsAt
  rw [hb c]
  exact congrArg (· + bc (ix2 (0 : Fin 1) c)) (Finset.sum_congr rfl fun k _ => by rw [hW k c])

end Cert.Sage

end
-- ==== Proof.KernelArrays.lean ====
/-
  Each region's output array after its pipeline's run, as the specification's function of the arrays the region
  finds. The grid has 20 points; point t stages rows 5000 t … 5000 t + 4999 of the row-blocked arrays (neighbour
  sums, features, reciprocal degrees) and the whole weights and bias, and writes back rows 5000 t … 5000 t + 4999
  of the output. The body's stored value at row r of its block is the layer's (the classifier's) entry at row
  5000 t + r of the arrays; the 20 blocks cover the 100000 rows, so the output array ends holding the layer
  (the classifier of the layer) everywhere.
-/
import proofs.«118277_j74345883894183_2_alg».proof.Proof.KernelIdealFrameP
import proofs.«118277_j74345883894183_2_alg».proof.Proof.KernelPayloads
import proofs.«118277_j74345883894183_2_alg».proof.Proof.Spec
import Idealize.ShloMosaic.Lib.Pipeline.Value
import Idealize.ShloMosaic.Lib.ValueIdx

noncomputable section

open scoped BigOperators

namespace Cert.Sage.Arrays

open Idealize.ShloMosaic Idealize.ShloMosaic.TcCoe Idealize.ShloMosaic.ValueIdx Idealize.SL.Sem
open Cert.KernelIdeal Cert.KernelIdeal.Gen Cert.KernelIdeal.GenP
open Idealize.ShloMosaic.Pipeline (Dat Cfg Window)

variable (V : (c : Dev nD) → (b : Ref sig .tc) → Buf (Elt Ideal) ((c : Thread nD τ).loc b)) (c : Dev nD)

/-- The zero offsets of a whole-block access, spelt as a function. -/
theorem hz : (![0, 0] : Fin 2 → Nat) = fun _ => 0 := funext fun a => by fin_cases a <;> rfl

/-- Row r of block t is row 5000 t + r of the array. -/
def rowOf (t : Fin 20) (r : Fin 5000) : Fin 100000 := ⟨t.val * 5000 + r.val, by have := t.isLt; have := r.isLt; omega⟩

/-! ## The layer over blocks: one entry of the first body's stored value -/

/-- If the loaded blocks read, at row r, the arrays at row p (the weights and the bias whole), the first body's
    stored value at (r, q) is the layer's entry (p, q). -/
theorem hidden_block (A X : Nodes.Idx → EReal) (d : Col.Idx → EReal) (Wl Wr : Wts.Idx → EReal) (b : Row.Idx → EReal)
    (x0 x1 : Vec Ideal S5000x128 .f32) (x2 : Vec Ideal S5000x1 .f32) (x3 x5 : Vec Ideal S128x128 .f32) (x4 : Vec Ideal S1x128 .f32)
    (p : Fin 100000) (r : Fin 5000) (q : Fin 128)
    (h0 : ∀ k, x0 (ix2 r k) = A (ix2 p k)) (h1 : ∀ k, x1 (ix2 r k) = X (ix2 p k))
    (h2 : x2 (ix2 r (0 : Fin 1)) = d (ix2 p (0 : Fin 1)))
    (h3 : ∀ k j, x3 (ix2 k j) = Wl (ix2 k j)) (h5 : ∀ k j, x5 (ix2 k j) = Wr (ix2 k j))
    (h4 : ∀ j, x4 (ix2 (0 : Fin 1) j) = b (ix2 (0 : Fin 1) j)) :
    k0_pay1 (F := Ideal) x0 x2 x1 x3 x5 x4 (ix2 r q) = hiddenAt A X d Wl Wr b p q := by
  rw [Cert.Sage.Body.k0_pay1_apply]
  unfold hiddenAt preAt
  rw [h2, h4 q]
  refine congrArg₂ max (congrArg₂ (· + ·) (congrArg₂ (· + ·) ?_ ?_) rfl) rfl
  · exact Finset.sum_congr rfl fun k _ => by rw [h0 k, h3 k q]
  · exact Finset.sum_congr rfl fun k _ => by rw [h1 k, h5 k q]

/-! ## Region 0 -/

/-- The printed index maps of the first region, decided over the grid: the row-blocked windows sit at block
    (t, 0), the weights and the bias at (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem emb0_0 (t : Fin cfg0.N) (r : Fin 5000) (k : Fin 128) :
    ((cfg0.win 0).blk t).view.emb (ix2 r k) = ix2 (rowOf t r) k := by
  obtain ⟨e0, e1, -⟩ := idx_facts0 t
  funext a; apply Fin.ext
  match a with
  | ⟨0, _⟩ => show win0_0.index t (0 : Fin 2) * 5000 + 1 * r.val = t.val * 5000 + r.val; rw [e0]; omega
  | ⟨1, _⟩ => show win0_0.index t (1 : Fin 2) * 128 + 1 * k.val = k.val; rw [e1]; omega

theorem emb0_1 (t : Fin cfg0.N) (r : Fin 5000) (k : Fin 128) :
    ((cfg0.win 1).blk t).view.emb (ix2 r k) = ix2 (rowOf t r) k := by
  obtain ⟨-, -, e0, e1, -⟩ := idx_facts0 t
  funext a; apply Fin.ext
  match a with
  | ⟨0, _⟩ => show win0_1.index t (0 : Fin 2) * 5000 + 1 * r.val = t.val * 5000 + r.val; rw [e0]; omega
  | ⟨1, _⟩ => show win0_1.index t (1 : Fin 2) * 128 + 1 * k.val = k.val; rw [e1]; omega

theorem emb0_2 (t : Fin cfg0.N) (r : Fin 5000) (u : Fin 1) :
    ((cfg0.win 2).blk t).view.emb (ix2 r u) = ix2 (rowOf t r) u := by
  obtain ⟨-, -, -, -, e0, e1, -⟩ := idx_facts0 t
  funext a; apply Fin.ext
  match a with
  | ⟨0, _⟩ => show win0_2.index t (0 : Fin 2) * 5000 + 1 * r.val = t.val * 5000 + r.val; rw [e0]; omega
  | ⟨1, _⟩ => show win0_2.index t (1 : Fin 2) * 1 + 1 * u.val = u.val; rw [e1]; omega

theorem emb0_3 (t : Fin cfg0.N) (k j : Fin 128) :
    ((cfg0.win 3).blk t).view.emb (ix2 k j) = ix2 k j := by
  obtain ⟨-, -, -, -, -, -, e0, e1, -⟩ := idx_facts0 t
  funext a; apply Fin.ext
  match a with
  | ⟨0, _⟩ => show win0_3.index t (0 : Fin 2) * 128 + 1 * k.val = k.val; rw [e0]; omega
  | ⟨1, _⟩ => show win0_3.index t (1 : Fin 2) * 128 + 1 * j.val = j.val; rw [e1]; omega

theorem emb0_4 (t : Fin cfg0.N) (u : Fin 1) (j : Fin 128) :
    ((cfg0.win 4).blk t).view.emb (ix2 u j) = ix2 u j := by
  obtain ⟨-, -, -, -, -, -, -, -, e0, e1, -⟩ := idx_facts0 t
  funext a; apply Fin.ext
  match a with
  | ⟨0, _⟩ => show win0_4.index t (0 : Fin 2) * 1 + 1 * u.val = u.val; rw [e0]; omega
  | ⟨1, _⟩ => show win0_4.index t (1 : Fin 2) * 128 + 1 * j.val = j.val; rw [e1]; omega

theorem emb0_5 (t : Fin cfg0.N) (k j : Fin 128) :
    ((cfg0.win 5).blk t).view.emb (ix2 k j) = ix2 k j := by
  obtain ⟨-, -, -, -, -, -, -, -, -, -, e0, e1, -⟩ := idx_facts0 t
  funext a; apply Fin.ext
  match a with
  | ⟨0, _⟩ => show win0_5.index t (0 : Fin 2) * 128 + 1 * k.val = k.val; rw [e0]; omega
  | ⟨1, _⟩ => show win0_5.index t (1 : Fin 2) * 128 + 1 * j.val = j.val; rw [e1]; omega

theorem emb0_6 (t : Fin cfg0.N) (r : Fin 5000) (k : Fin 128) :
    ((cfg0.win 6).blk t).view.emb (ix2 r k) = ix2 (rowOf t r) k := by
  obtain ⟨-, -, -, -, -, -, -, -, -, -, -, -, e0, e1⟩ := idx_facts0 t
  funext a; apply Fin.ext
  match a with
  | ⟨0, _⟩ => show win0_6.index t (0 : Fin 2) * 5000 + 1 * r.val = t.val * 5000 + r.val; rw [e0]; omega
  | ⟨1, _⟩ => show win0_6.index t (1 : Fin 2) * 128 + 1 * k.val = k.val; rw [e1]; omega

/-- What point t writes back is block t of the layer of the arrays as the region finds them. -/
theorem flushed0_eq (t : Fin cfg0.N) :
    (dat0 (F := Ideal) V c).flushed 6 t = ((cfg0.win 6).blk t).view.read (Elt Ideal)
      (Cert.Sage.hidden (V c main_v36) (V c main_arg0) (V c main_v12) (V c main_v13) (V c main_v14) (V c main_v25)) := by
  show (cfg0.win 6).cut (grid0.coords t) ((dat0 V c).after 6 t) = _
  rw [after0_6]
  unfold out0_6
  rw [View.canon_unit_zero hz]
  simp only [View.ld_unit_zero (S := S5000x128) hz, View.ld_unit_zero (S := S5000x1) hz, View.ld_unit_zero (S := S128x128) hz, View.ld_unit_zero (S := S1x128) hz]
  funext j
  obtain ⟨r, q, rfl⟩ : ∃ (r : Fin 5000) (q : Fin 128), j = ix2 r q := ⟨j 0, j 1, eq_ix2 j⟩
  show k0_pay1 (F := Ideal) (iblk0 V c 0 t) (iblk0 V c 2 t) (iblk0 V c 1 t) (iblk0 V c 3 t) (iblk0 V c 5 t) (iblk0 V c 4 t) (ix2 r q)
    = Cert.Sage.hidden (V c main_v36) (V c main_arg0) (V c main_v12) (V c main_v13) (V c main_v14) (V c main_v25) (((cfg0.win 6).blk t).view.emb (ix2 r q))
  rw [emb0_6 t r q, hidden_apply]
  refine hidden_block _ _ _ _ _ _ _ _ _ _ _ _ (rowOf t r) r q ?_ ?_ ?_ ?_ ?_ ?_
  · intro k; show V c main_v36 (((cfg0.win 0).blk t).view.emb (ix2 r k)) = _; rw [emb0_0]
  · intro k; show V c main_arg0 (((cfg0.win 1).blk t).view.emb (ix2 r k)) = _; rw [emb0_1]
  · show V c main_v12 (((cfg0.win 2).blk t).view.emb (ix2 r (0 : Fin 1))) = _; rw [emb0_2]
  · intro k j; show V c main_v13 (((cfg0.win 3).blk t).view.emb (ix2 k j)) = _; rw [emb0_3]
  · intro k j; show V c main_v14 (((cfg0.win 5).blk t).view.emb (ix2 k j)) = _; rw [emb0_5]
  · intro j; show V c main_v25 (((cfg0.win 4).blk t).view.emb (ix2 (0 : Fin 1) j)) = _; rw [emb0_4]

/-- An index of the array is in point t's block iff each coordinate is in the block's range on its axis. -/
theorem mem_blk0 (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v37).slice (win0_6.rect t)).set ↔ _
  rw [View.set_slice_whole, Rect.mem_set_unit]
  exact Iff.rfl

/-- The 20 blocks of 5000 rows cover the array: row p is in block p / 5000. -/
theorem cover0 (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have ht : (i 0).val / 5000 < 20 := by omega
  obtain ⟨-, -, -, -, -, -, -, -, -, -, -, -, e0, e1⟩ := idx_facts0 ⟨(i 0).val / 5000, ht⟩
  refine ⟨⟨(i 0).val / 5000, ht⟩, flush0_6 _, ?_⟩
  rw [mem_blk0]
  intro a
  match a with
  | ⟨0, _⟩ =>
    show win0_6.index ⟨(i 0).val / 5000, ht⟩ (0 : Fin 2) * 5000 ≤ (i 0).val ∧ (i 0).val < win0_6.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_6.index ⟨(i 0).val / 5000, ht⟩ (1 : Fin 2) * 128 ≤ (i 1).val ∧ (i 1).val < win0_6.index ⟨(i 0).val / 5000, ht⟩ (1 : Fin 2) * 128 + 128
    rw [e1]; omega

/-- The first region's output array after the run is the layer of the arrays as the region finds them. -/
theorem final0 : (dat0 (F := Ideal) V c).arrAt 6 cfg0.N
      = Cert.Sage.hidden (V c main_v36) (V c main_arg0) (V c main_v12) (V c main_v13) (V c main_v14) (V c main_v25) :=
  (dat0 (F := Ideal) V c).arrAt_eq_of_cover 6 _ (fun t _ => flushed0_eq V c t) cover0

/-! ## The classifier over blocks: one entry of the second body's stored value -/

/-- If the loaded blocks read, at row r, the arrays at row p (the weights and the biases whole), the second body's
    stored value at (r, q) is the classifier's entry (p, q) over the layer. -/
theorem logits_block (A X : Nodes.Idx → EReal) (d : Col.Idx → EReal) (Wl Wr Wc : Wts.Idx → EReal) (b bc : Row.Idx → EReal)
    (x0 x1 : Vec Ideal S5000x128 .f32) (x2 : Vec Ideal S5000x1 .f32) (x3 x5 x6 : Vec Ideal S128x128 .f32) (x4 x7 : Vec Ideal S1x128 .f32)
    (p : Fin 100000) (r : Fin 5000) (q : Fin 128)
    (h0 : ∀ k, x0 (ix2 r k) = A (ix2 p k)) (h1 : ∀ k, x1 (ix2 r k) = X (ix2 p k))
    (h2 : x2 (ix2 r (0 : Fin 1)) = d (ix2 p (0 : Fin 1)))
    (h3 : ∀ k j, x3 (ix2 k j) = Wl (ix2 k j)) (h5 : ∀ k j, x5 (ix2 k j) = Wr (ix2 k j))
    (h4 : ∀ j, x4 (ix2 (0 : Fin 1) j) = b (ix2 (0 : Fin 1) j))
    (h6 : ∀ k j, x6 (ix2 k j) = Wc (ix2 k j)) (h7 : ∀ j, x7 (ix2 (0 : Fin 1) j) = bc (ix2 (0 : Fin 1) j)) :
    k1_pay1 (F := Ideal) x0 x2 x1 x3 x5 x4 x6 x7 (ix2 r q)
      = logitsAt (C := 128) (hidden A X d Wl Wr b) Wc bc p q := by
  rw [Cert.Sage.Body.k1_pay1_apply]
  unfold logitsAt
  rw [h7 q]
  refine congrArg₂ (· + ·) (Finset.sum_congr rfl fun j _ => ?_) rfl
  rw [h6 j q, hidden_apply]
  unfold hiddenAt preAt
  rw [h2, h4 j]
  refine congrArg₂ (· * ·) (congrArg₂ max (congrArg₂ (· + ·) (congrArg₂ (· + ·) ?_ ?_) rfl) rfl) rfl
  · exact Finset.sum_congr rfl fun k _ => by rw [h0 k, h3 k j]
  · exact Finset.sum_congr rfl fun k _ => by rw [h1 k, h5 k j]

/-! ## Region 1 -/

/-- The printed index maps of the second region, decided over the grid: the row-blocked windows sit at block
    (t, 0), the weights and the biases at (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

theorem emb1_0 (t : Fin cfg1.N) (r : Fin 5000) (k : Fin 128) :
    ((cfg1.win 0).blk t).view.emb (ix2 r k) = ix2 (rowOf t r) k := by
  obtain ⟨e0, e1, -⟩ := idx_facts1 t
  funext a; apply Fin.ext
  match a with
  | ⟨0, _⟩ => show win1_0.index t (0 : Fin 2) * 5000 + 1 * r.val = t.val * 5000 + r.val; rw [e0]; omega
  | ⟨1, _⟩ => show win1_0.index t (1 : Fin 2) * 128 + 1 * k.val = k.val; rw [e1]; omega

theorem emb1_1 (t : Fin cfg1.N) (r : Fin 5000) (k : Fin 128) :
    ((cfg1.win 1).blk t).view.emb (ix2 r k) = ix2 (rowOf t r) k := by
  obtain ⟨-, -, e0, e1, -⟩ := idx_facts1 t
  funext a; apply Fin.ext
  match a with
  | ⟨0, _⟩ => show win1_1.index t (0 : Fin 2) * 5000 + 1 * r.val = t.val * 5000 + r.val; rw [e0]; omega
  | ⟨1, _⟩ => show win1_1.index t (1 : Fin 2) * 128 + 1 * k.val = k.val; rw [e1]; omega

theorem emb1_2 (t : Fin cfg1.N) (r : Fin 5000) (u : Fin 1) :
    ((cfg1.win 2).blk t).view.emb (ix2 r u) = ix2 (rowOf t r) u := by
  obtain ⟨-, -, -, -, e0, e1, -⟩ := idx_facts1 t
  funext a; apply Fin.ext
  match a with
  | ⟨0, _⟩ => show win1_2.index t (0 : Fin 2) * 5000 + 1 * r.val = t.val * 5000 + r.val; rw [e0]; omega
  | ⟨1, _⟩ => show win1_2.index t (1 : Fin 2) * 1 + 1 * u.val = u.val; rw [e1]; omega

theorem emb1_3 (t : Fin cfg1.N) (k j : Fin 128) :
    ((cfg1.win 3).blk t).view.emb (ix2 k j) = ix2 k j := by
  obtain ⟨-, -, -, -, -, -, e0, e1, -⟩ := idx_facts1 t
  funext a; apply Fin.ext
  match a with
  | ⟨0, _⟩ => show win1_3.index t (0 : Fin 2) * 128 + 1 * k.val = k.val; rw [e0]; omega
  | ⟨1, _⟩ => show win1_3.index t (1 : Fin 2) * 128 + 1 * j.val = j.val; rw [e1]; omega

theorem emb1_4 (t : Fin cfg1.N) (u : Fin 1) (j : Fin 128) :
    ((cfg1.win 4).blk t).view.emb (ix2 u j) = ix2 u j := by
  obtain ⟨-, -, -, -, -, -, -, -, e0, e1, -⟩ := idx_facts1 t
  funext a; apply Fin.ext
  match a with
  | ⟨0, _⟩ => show win1_4.index t (0 : Fin 2) * 1 + 1 * u.val = u.val; rw [e0]; omega
  | ⟨1, _⟩ => show win1_4.index t (1 : Fin 2) * 128 + 1 * j.val = j.val; rw [e1]; omega

theorem emb1_5 (t : Fin cfg1.N) (k j : Fin 128) :
    ((cfg1.win 5).blk t).view.emb (ix2 k j) = ix2 k j := by
  obtain ⟨-, -, -, -, -, -, -, -, -, -, e0, e1, -⟩ := idx_facts1 t
  funext a; apply Fin.ext
  match a with
  | ⟨0, _⟩ => show win1_5.index t (0 : Fin 2) * 128 + 1 * k.val = k.val; rw [e0]; omega
  | ⟨1, _⟩ => show win1_5.index t (1 : Fin 2) * 128 + 1 * j.val = j.val; rw [e1]; omega

theorem emb1_6 (t : Fin cfg1.N) (k j : Fin 128) :
    ((cfg1.win 6).blk t).view.emb (ix2 k j) = ix2 k j := by
  obtain ⟨-, -, -, -, -, -, -, -, -, -, -, -, e0, e1, -⟩ := idx_facts1 t
  funext a; apply Fin.ext
  match a with
  | ⟨0, _⟩ => show win1_6.index t (0 : Fin 2) * 128 + 1 * k.val = k.val; rw [e0]; omega
  | ⟨1, _⟩ => show win1_6.index t (1 : Fin 2) * 128 + 1 * j.val = j.val; rw [e1]; omega

theorem emb1_7 (t : Fin cfg1.N) (u : Fin 1) (j : Fin 128) :
    ((cfg1.win 7).blk t).view.emb (ix2 u j) = ix2 u j := by
  obtain ⟨-, -, -, -, -, -, -, -, -, -, -, -, -, -, e0, e1, -⟩ := idx_facts1 t
  funext a; apply Fin.ext
  match a with
  | ⟨0, _⟩ => show win1_7.index t (0 : Fin 2) * 1 + 1 * u.val = u.val; rw [e0]; omega
  | ⟨1, _⟩ => show win1_7.index t (1 : Fin 2) * 128 + 1 * j.val = j.val; rw [e1]; omega

theorem emb1_8 (t : Fin cfg1.N) (r : Fin 5000) (k : Fin 128) :
    ((cfg1.win 8).blk t).view.emb (ix2 r k) = ix2 (rowOf t r) k := by
  obtain ⟨-, -, -, -, -, -, -, -, -, -, -, -, -, -, -, -, e0, e1⟩ := idx_facts1 t
  funext a; apply Fin.ext
  match a with
  | ⟨0, _⟩ => show win1_8.index t (0 : Fin 2) * 5000 + 1 * r.val = t.val * 5000 + r.val; rw [e0]; omega
  | ⟨1, _⟩ => show win1_8.index t (1 : Fin 2) * 128 + 1 * k.val = k.val; rw [e1]; omega

/-- What point t writes back is block t of the classifier over the layer of the arrays as the region finds them. -/
theorem flushed1_eq (t : Fin cfg1.N) :
    (dat1 (F := Ideal) V c).flushed 8 t = ((cfg1.win 8).blk t).view.read (Elt Ideal)
      (Cert.Sage.logits (C := 128) (Cert.Sage.hidden (V c main_v47) (V c main_v37) (V c main_v12) (V c main_v15) (V c main_v16) (V c main_v26)) (V c main_v20) (V c main_v24)) := by
  show (cfg1.win 8).cut (grid1.coords t) ((dat1 V c).after 8 t) = _
  rw [after1_8]
  unfold out1_8
  rw [View.canon_unit_zero hz]
  simp only [View.ld_unit_zero (S := S5000x128) hz, View.ld_unit_zero (S := S5000x1) hz, View.ld_unit_zero (S := S128x128) hz, View.ld_unit_zero (S := S1x128) hz]
  funext j
  obtain ⟨r, q, rfl⟩ : ∃ (r : Fin 5000) (q : Fin 128), j = ix2 r q := ⟨j 0, j 1, eq_ix2 j⟩
  show k1_pay1 (F := Ideal) (iblk1 V c 0 t) (iblk1 V c 2 t) (iblk1 V c 1 t) (iblk1 V c 3 t) (iblk1 V c 5 t) (iblk1 V c 4 t) (iblk1 V c 6 t) (iblk1 V c 7 t) (ix2 r q)
    = Cert.Sage.logits (C := 128) (Cert.Sage.hidden (V c main_v47) (V c main_v37) (V c main_v12) (V c main_v15) (V c main_v16) (V c main_v26)) (V c main_v20) (V c main_v24) (((cfg1.win 8).blk t).view.emb (ix2 r q))
  rw [emb1_8 t r q, logits_apply]
  refine logits_block _ _ _ _ _ _ _ _ _ _ _ _ _ _ _ _ (rowOf t r) r q ?_ ?_ ?_ ?_ ?_ ?_ ?_ ?_
  · intro k; show V c main_v47 (((cfg1.win 0).blk t).view.emb (ix2 r k)) = _; rw [emb1_0]
  · intro k; show V c main_v37 (((cfg1.win 1).blk t).view.emb (ix2 r k)) = _; rw [emb1_1]
  · show V c main_v12 (((cfg1.win 2).blk t).view.emb (ix2 r (0 : Fin 1))) = _; rw [emb1_2]
  · intro k j; show V c main_v15 (((cfg1.win 3).blk t).view.emb (ix2 k j)) = _; rw [emb1_3]
  · intro k j; show V c main_v16 (((cfg1.win 5).blk t).view.emb (ix2 k j)) = _; rw [emb1_5]
  · intro j; show V c main_v26 (((cfg1.win 4).blk t).view.emb (ix2 (0 : Fin 1) j)) = _; rw [emb1_4]
  · intro k j; show V c main_v20 (((cfg1.win 6).blk t).view.emb (ix2 k j)) = _; rw [emb1_6]
  · intro j; show V c main_v24 (((cfg1.win 7).blk t).view.emb (ix2 (0 : Fin 1) j)) = _; rw [emb1_7]

/-- An index of the array is in point t's block iff each coordinate is in the block's range on its axis. -/
theorem mem_blk1 (t : Fin cfg1.N) (i : S100000x128.Idx) :
    i ∈ ((cfg1.win 8).blk t).view.set ↔ ∀ a : Fin 2, win1_8.index t a * S5000x128.size a ≤ (i a).val ∧ (i a).val < win1_8.index t a * S5000x128.size a + S5000x128.size a := by
  show i ∈ ((View.whole main_v48).slice (win1_8.rect t)).set ↔ _
  rw [View.set_slice_whole, Rect.mem_set_unit]
  exact Iff.rfl

/-- The 20 blocks of 5000 rows cover the array: row p is in block p / 5000. -/
theorem cover1 (i : S100000x128.Idx) :
    ∃ t : Fin cfg1.N, (cfg1.win 8).flush t = true ∧ i ∈ ((cfg1.win 8).blk t).view.set := by
  have hi0 : (i 0).val < 100000 := (i 0).isLt
  have hi1 : (i 1).val < 128 := (i 1).isLt
  have ht : (i 0).val / 5000 < 20 := by omega
  obtain ⟨-, -, -, -, -, -, -, -, -, -, -, -, -, -, -, -, e0, e1⟩ := idx_facts1 ⟨(i 0).val / 5000, ht⟩
  refine ⟨⟨(i 0).val / 5000, ht⟩, flush1_8 _, ?_⟩
  rw [mem_blk1]
  intro a
  match a with
  | ⟨0, _⟩ =>
    show win1_8.index ⟨(i 0).val / 5000, ht⟩ (0 : Fin 2) * 5000 ≤ (i 0).val ∧ (i 0).val < win1_8.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_8.index ⟨(i 0).val / 5000, ht⟩ (1 : Fin 2) * 128 ≤ (i 1).val ∧ (i 1).val < win1_8.index ⟨(i 0).val / 5000, ht⟩ (1 : Fin 2) * 128 + 128
    rw [e1]; omega

/-- The second region's output array after the run is the classifier over the layer of the arrays as the region
    finds them. -/
theorem final1 : (dat1 (F := Ideal) V c).arrAt 8 cfg1.N
      = Cert.Sage.logits (C := 128) (Cert.Sage.hidden (V c main_v47) (V c main_v37) (V c main_v12) (V c main_v15) (V c main_v16) (V c main_v26)) (V c main_v20) (V c main_v24) :=
  (dat1 (F := Ideal) V c).arrAt_eq_of_cover 8 _ (fun t _ => flushed1_eq V c t) cover1

end Cert.Sage.Arrays

end
-- ==== Proof.RefLayers.lean ====
/-
  The reference program's three dense stages are the specification's functions of whole arrays: each
  hidden layer is the clamp at zero of (neighbour product + bias + root product), read entry by entry,
  and the classifier is (hidden product + bias).  The only algebra is the commutation that moves the
  bias past the root product.
-/
import proofs.«118277_j74345883894183_2_alg».proof.Proof.Gen.ReferenceIdeal.Read
import proofs.«118277_j74345883894183_2_alg».proof.Proof.Spec

noncomputable section

open scoped BigOperators

namespace Cert.Sage.Ref

open Idealize.ShloMosaic Idealize.ShloMosaic.ValueIdx Cert.ReferenceIdeal Cert.ReferenceIdeal.Read

/-- The first hidden layer of the reference is the specification's layer of its own operands. -/
theorem hidden0_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v33 (F := Ideal) x0 x1 x2 x3 x4
      = Cert.Sage.hidden (val_main_v21 (F := Ideal) x0 x1) x0 (val_main_v22 (F := Ideal) x1) (val_main_v25 (F := Ideal) x2)
          (val_main_v30 (F := Ideal) x4) (val_main_v27 (F := Ideal) x3) := by
  funext i
  obtain ⟨p, c, rfl⟩ : ∃ (p : Fin 100000) (c : Fin 128), i = ix2 p c := ⟨i 0, i 1, eq_ix2 i⟩
  rw [Cert.Sage.hidden_apply]
  unfold Cert.Sage.hiddenAt
  rw [← Cert.Sage.preAt_bias_first]
  rw [val_main_v33_apply, val_main_v32_apply, val_main_v29_apply, val_main_v26_apply, val_main_v31_apply,
    val_main_v28_apply, val_main_call0_v0_apply, val_main_call0_cst_apply]
  -- the composed index functions at (p, c) are the coordinate pairs
  have el26 : ∀ k : Fin 128, lidx_main_v26 (ix2 p c) k = ix2 p k := fun k =>
    funext fun a => Fin.ext (by match a with | ⟨0, _⟩ => rfl | ⟨1, _⟩ => rfl)
  have er26 : ∀ k : Fin 128, ridx_main_v26 (ix2 p c) k = ix2 k c := fun k =>
    funext fun a => Fin.ext (by match a with | ⟨0, _⟩ => rfl | ⟨1, _⟩ => rfl)
  have el31 : ∀ k : Fin 128, lidx_main_v31 (ix2 p c) k = ix2 p k := fun k =>
    funext fun a => Fin.ext (by match a with | ⟨0, _⟩ => rfl | ⟨1, _⟩ => rfl)
  have er31 : ∀ k : Fin 128, ridx_main_v31 (ix2 p c) k = ix2 k c := fun k =>
    funext fun a => Fin.ext (by match a with | ⟨0, _⟩ => rfl | ⟨1, _⟩ => rfl)
  have e28 : idx_main_v28 (ix2 p c) = ix2 (0 : Fin 1) c :=
    funext fun a => Fin.ext (by match a with | ⟨0, _⟩ => rfl | ⟨1, _⟩ => rfl)
  have e23 : ∀ k : Fin 128, idx_main_v23 (ix2 p k) = ix2 p (0 : Fin 1) := fun k =>
    funext fun a => Fin.ext (by match a with | ⟨0, _⟩ => rfl | ⟨1, _⟩ => rfl)
  rw [Ideal.maximumf_def, Ideal.addf_def, Ideal.addf_def, Ideal.ofBits_def, Ideal.ofBits_zero_f32, e28]
  have s1 : (∑ k : Fin 128, val_main_v24 (F := Ideal) x0 x1 (lidx_main_v26 (ix2 p c) k) * val_main_v25 (F := Ideal) x2 (ridx_main_v26 (ix2 p c) k))
      = ∑ k : Fin 128, (val_main_v21 (F := Ideal) x0 x1 (ix2 p k) * val_main_v22 (F := Ideal) x1 (ix2 p (0 : Fin 1)))
          * val_main_v25 (F := Ideal) x2 (ix2 k c) :=
    Finset.sum_congr rfl fun k _ => by
      rw [el26 k, er26 k, val_main_v24_apply, val_main_v23_apply, e23 k]; rfl
  have s2 : (∑ k : Fin 128, x0 (lidx_main_v31 (ix2 p c) k) * val_main_v30 (F := Ideal) x4 (ridx_main_v31 (ix2 p c) k))
      = ∑ k : Fin 128, x0 (ix2 p k) * val_main_v30 (F := Ideal) x4 (ix2 k c) :=
    Finset.sum_congr rfl fun k _ => by rw [el31 k, er31 k]
  rw [s1, s2]

/-- The second hidden layer of the reference is the specification's layer of its own operands; the node features it
    reads are the first hidden layer. -/
theorem hidden1_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 x5 : (⟨S128x128, .f32⟩ : BufTy).Contents (Elt Ideal)) (x6 : (⟨S128, .f32⟩ : BufTy).Contents (Elt Ideal))
    (x7 : (⟨S128x128, .f32⟩ : BufTy).Contents (Elt Ideal)) :
    val_main_v55 (F := Ideal) x0 x1 x2 x3 x4 x5 x6 x7
      = Cert.Sage.hidden (val_main_v43 (F := Ideal) x0 x1 x2 x3 x4) (val_main_v33 (F := Ideal) x0 x1 x2 x3 x4)
          (val_main_v44 (F := Ideal) x1) (val_main_v47 (F := Ideal) x5) (val_main_v52 (F := Ideal) x7)
          (val_main_v49 (F := Ideal) x6) := by
  funext i
  obtain ⟨p, c, rfl⟩ : ∃ (p : Fin 100000) (c : Fin 128), i = ix2 p c := ⟨i 0, i 1, eq_ix2 i⟩
  rw [Cert.Sage.hidden_apply]
  unfold Cert.Sage.hiddenAt
  rw [← Cert.Sage.preAt_bias_first]
  rw [val_main_v55_apply, val_main_v54_apply, val_main_v51_apply, val_main_v48_apply, val_main_v53_apply,
    val_main_v50_apply, val_main_call1_v0_apply, val_main_call1_cst_apply]
  -- the composed index functions at (p, c) are the coordinate pairs
  have el48 : ∀ k : Fin 128, lidx_main_v48 (ix2 p c) k = ix2 p k := fun k =>
    funext fun a => Fin.ext (by match a with | ⟨0, _⟩ => rfl | ⟨1, _⟩ => rfl)
  have er48 : ∀ k : Fin 128, ridx_main_v48 (ix2 p c) k = ix2 k c := fun k =>
    funext fun a => Fin.ext (by match a with | ⟨0, _⟩ => rfl | ⟨1, _⟩ => rfl)
  have el53 : ∀ k : Fin 128, lidx_main_v53 (ix2 p c) k = ix2 p k := fun k =>
    funext fun a => Fin.ext (by match a with | ⟨0, _⟩ => rfl | ⟨1, _⟩ => rfl)
  have er53 : ∀ k : Fin 128, ridx_main_v53 (ix2 p c) k = ix2 k c := fun k =>
    funext fun a => Fin.ext (by match a with | ⟨0, _⟩ => rfl | ⟨1, _⟩ => rfl)
  have e50 : idx_main_v50 (ix2 p c) = ix2 (0 : Fin 1) c :=
    funext fun a => Fin.ext (by match a with | ⟨0, _⟩ => rfl | ⟨1, _⟩ => rfl)
  have e45 : ∀ k : Fin 128, idx_main_v45 (ix2 p k) = ix2 p (0 : Fin 1) := fun k =>
    funext fun a => Fin.ext (by match a with | ⟨0, _⟩ => rfl | ⟨1, _⟩ => rfl)
  rw [Ideal.maximumf_def, Ideal.addf_def, Ideal.addf_def, Ideal.ofBits_def, Ideal.ofBits_zero_f32, e50]
  have s1 : (∑ k : Fin 128, val_main_v46 (F := Ideal) x0 x1 x2 x3 x4 (lidx_main_v48 (ix2 p c) k)
          * val_main_v47 (F := Ideal) x5 (ridx_main_v48 (ix2 p c) k))
      = ∑ k : Fin 128, (val_main_v43 (F := Ideal) x0 x1 x2 x3 x4 (ix2 p k) * val_main_v44 (F := Ideal) x1 (ix2 p (0 : Fin 1)))
          * val_main_v47 (F := Ideal) x5 (ix2 k c) :=
    Finset.sum_congr rfl fun k _ => by
      rw [el48 k, er48 k, val_main_v46_apply, val_main_v45_apply, e45 k]; rfl
  have s2 : (∑ k : Fin 128, val_main_v33 (F := Ideal) x0 x1 x2 x3 x4 (lidx_main_v53 (ix2 p c) k)
          * val_main_v52 (F := Ideal) x7 (ridx_main_v53 (ix2 p c) k))
      = ∑ k : Fin 128, val_main_v33 (F := Ideal) x0 x1 x2 x3 x4 (ix2 p k) * val_main_v52 (F := Ideal) x7 (ix2 k c) :=
    Finset.sum_congr rfl fun k _ => by rw [el53 k, er53 k]
  rw [s1, s2]

/-- The classifier of the reference is the specification's classifier, with 40 output columns, on the second
    hidden layer. -/
theorem logits_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 x5 : (⟨S128x128, .f32⟩ : BufTy).Contents (Elt Ideal)) (x6 : (⟨S128, .f32⟩ : BufTy).Contents (Elt Ideal))
    (x7 : (⟨S128x128, .f32⟩ : BufTy).Contents (Elt Ideal))
    (x8 : (⟨S40x128, .f32⟩ : BufTy).Contents (Elt Ideal)) (x9 : (⟨S40, .f32⟩ : BufTy).Contents (Elt Ideal)) :
    val_main_v60 (F := Ideal) x0 x1 x2 x3 x4 x5 x6 x7 x8 x9
      = Cert.Sage.logits (C := 40) (val_main_v55 (F := Ideal) x0 x1 x2 x3 x4 x5 x6 x7) (val_main_v56 (F := Ideal) x8)
          (val_main_v58 (F := Ideal) x9) := by
  funext i
  obtain ⟨p, c, rfl⟩ : ∃ (p : Fin 100000) (c : Fin 40), i = ix2 p c := ⟨i 0, i 1, eq_ix2 i⟩
  rw [Cert.Sage.logits_apply]
  unfold Cert.Sage.logitsAt
  rw [val_main_v60_apply, val_main_v57_apply, val_main_v59_apply]
  have el57 : ∀ k : Fin 128, lidx_main_v57 (ix2 p c) k = ix2 p k := fun k =>
    funext fun a => Fin.ext (by match a with | ⟨0, _⟩ => rfl | ⟨1, _⟩ => rfl)
  have er57 : ∀ k : Fin 128, ridx_main_v57 (ix2 p c) k = ix2 k c := fun k =>
    funext fun a => Fin.ext (by match a with | ⟨0, _⟩ => rfl | ⟨1, _⟩ => rfl)
  have e59 : idx_main_v59 (ix2 p c) = ix2 (0 : Fin 1) c :=
    funext fun a => Fin.ext (by match a with | ⟨0, _⟩ => rfl | ⟨1, _⟩ => rfl)
  rw [Ideal.addf_def, e59]
  have s1 : (∑ k : Fin 128, val_main_v55 (F := Ideal) x0 x1 x2 x3 x4 x5 x6 x7 (lidx_main_v57 (ix2 p c) k)
          * val_main_v56 (F := Ideal) x8 (ridx_main_v57 (ix2 p c) k))
      = ∑ k : Fin 128, val_main_v55 (F := Ideal) x0 x1 x2 x3 x4 x5 x6 x7 (ix2 p k) * val_main_v56 (F := Ideal) x8 (ix2 k c) :=
    Finset.sum_congr rfl fun k _ => by rw [el57 k, er57 k]
  rw [s1]

end Cert.Sage.Ref

end
-- ==== Proof.LibScatterSet.lean ====
/-
  A scatter whose combining function returns the update (an array with some elements overwritten), read at an index.

  The scatter is a left fold over the update's elements: each element that lands inside the operand overwrites the
  element it lands on.  Read at ONE index `i` the fold is therefore decided by the update elements landing on `i`:
  if they all carry one value `c` and there is at least one (or the operand already holds `c` at `i`), the result is `c`
  (`scatter_set_apply`).  An element lands on `i` exactly when every coordinate of `i` is the start read off the index
  vector plus the element's window coordinate (`resultIdx?_eq_some_iff`).

  For the commonest use, ONE rectangular window `[u0, u1]` written into a rank-2 array `[s0, s1]` at the offset
  `(o0, o1)` the index vector holds (`windowDims`: both axes window axes, nothing inserted), this gives: inside the
  window the result reads the update at the index less the offset (`scatter_window_apply_in`), outside it reads the
  operand (`scatter_window_apply_out`).  No clamping enters: an element whose landing place is outside the operand is
  dropped, and a window that fits is written whole.
-/
import Idealize.ShloMosaic.PureOps.Ideal
import Idealize.ShloMosaic.Lib.ValueIdx
import Idealize.ShloMosaic.Lib.Pipeline.Value

noncomputable section

namespace Cert.Lib.ScatterSet

open Idealize.ShloMosaic Idealize.ShloMosaic.ValueIdx

/-- A scatter whose body returns the update, read at an index: if every update element landing on `i` carries the
    value `c`, and either some update element lands on `i` or the operand already holds `c` there, the result holds `c`. -/
theorem scatter_set_apply {s si u : Shape} {α : Type} {w : Nat} (d : ScatterDims s si u) (x : s.Idx → α)
    (idx : IVec si w) (upd : u.Idx → α) (i : s.Idx) (c : α)
    (hc : x i = c ∨ ∃ j, d.resultIdx? j idx = some i)
    (hv : ∀ j, d.resultIdx? j idx = some i → upd j = c) :
    Host.scatter d (fun _ b => b) x idx upd i = c := by
  have h0 : x i = c ∨ ∃ n ∈ List.finRange u.numel, d.resultIdx? (u.rowMajor.symm n) idx = some i := by
    rcases hc with h | ⟨j, hj⟩
    · exact Or.inl h
    · exact Or.inr ⟨u.rowMajor j, List.mem_finRange _, by rw [Equiv.symm_apply_apply]; exact hj⟩
  clear hc
  unfold Host.scatter
  generalize List.finRange u.numel = L at h0 ⊢
  induction L generalizing x with
  | nil =>
    rcases h0 with h | ⟨n, hn, _⟩
    · exact h
    · exact absurd hn List.not_mem_nil
  | cons n L ih =>
    rw [List.foldl_cons]
    apply ih
    cases hres : d.resultIdx? (u.rowMajor.symm n) idx with
    | none =>
      dsimp only
      rcases h0 with h | ⟨n', hn', hit⟩
      · exact Or.inl h
      · right
        rcases List.mem_cons.1 hn' with rfl | hn''
        · rw [hres] at hit; exact absurd hit (by simp)
        · exact ⟨n', hn'', hit⟩
    | some i₀ =>
      dsimp only
      by_cases hi : i = i₀
      · left; rw [if_pos hi]; exact hv _ (hres.trans (congrArg some hi.symm))
      · rw [if_neg hi]
        rcases h0 with h | ⟨n', hn', hit⟩
        · exact Or.inl h
        · right
          rcases List.mem_cons.1 hn' with rfl | hn''
          · rw [hres] at hit; exact absurd (Option.some.inj hit).symm hi
          · exact ⟨n', hn'', hit⟩

/-- Where an update element lands: at the operand index whose every coordinate is the start plus the window
    coordinate, when that index exists. -/
theorem resultIdx?_eq_some_iff {s si u : Shape} {w : Nat} (d : ScatterDims s si u) (j : u.Idx) (idx : IVec si w) (i : s.Idx) :
    d.resultIdx? j idx = some i ↔ ∀ a, ((i a).val : Int) = d.start j idx a + d.window j a := by
  unfold ScatterDims.resultIdx?
  split
  · next h =>
    constructor
    · intro e a
      have e' := Option.some.inj e
      subst e'
      have := h a
      show (((d.start j idx a + d.window j a).toNat : Nat) : Int) = _
      omega
    · intro hi
      refine congrArg some (funext fun a => Fin.ext ?_)
      have := hi a
      show (d.start j idx a + d.window j a).toNat = (i a).val
      omega
  · next h =>
    constructor
    · intro e; exact absurd e (by simp)
    · intro hi
      exact absurd (fun a => ⟨by have := hi a; omega, by have := hi a; have := (i a).isLt; omega⟩) h

/-! ## One rectangular window `[u0, u1]` written into a rank-2 array at the offset `(o0, o1)` -/

/-- The dimension numbers of such a write: both operand axes are window axes, none is inserted, and the index
    vector (of length two) names the two starts. -/
abbrev windowDims (s0 s1 u0 u1 : Nat) (wf : ScatterDims.WF ⟨2, ![s0, s1]⟩ ⟨1, ![2]⟩ ⟨2, ![u0, u1]⟩ [0, 1] [] [0, 1] 0) :
    ScatterDims ⟨2, ![s0, s1]⟩ ⟨1, ![2]⟩ ⟨2, ![u0, u1]⟩ where
  updateWindowDims := [0, 1]
  insertedWindowDims := []
  scatterDimsToOperandDims := [0, 1]
  indexVectorDim := 0
  wf := wf

section Window
variable {s0 s1 u0 u1 w : Nat} (wf : ScatterDims.WF ⟨2, ![s0, s1]⟩ ⟨1, ![2]⟩ ⟨2, ![u0, u1]⟩ [0, 1] [] [0, 1] 0)
  (j : (⟨2, ![u0, u1]⟩ : Shape).Idx) (idx : IVec ⟨1, ![2]⟩ w)

theorem windowDims_start0 : (windowDims s0 s1 u0 u1 wf).start j idx 0 = (idx (ix1 (0 : Fin 2))).toInt := by
  unfold ScatterDims.start
  rw [dif_pos (show (0 : Fin 2) ∈ ([0, 1] : List (Fin 2)) from by decide)]
  refine congrArg (fun k => (idx k).toInt) (funext fun b => ?_)
  match b with | ⟨0, _⟩ => rfl

theorem windowDims_start1 : (windowDims s0 s1 u0 u1 wf).start j idx 1 = (idx (ix1 (1 : Fin 2))).toInt := by
  unfold ScatterDims.start
  rw [dif_pos (show (1 : Fin 2) ∈ ([0, 1] : List (Fin 2)) from by decide)]
  refine congrArg (fun k => (idx k).toInt) (funext fun b => ?_)
  match b with | ⟨0, _⟩ => rfl

theorem windowDims_window0 : (windowDims s0 s1 u0 u1 wf).window j 0 = (j 0).val := by
  unfold ScatterDims.window
  rw [dif_pos (show (0 : Fin 2) ∈ (windowDims s0 s1 u0 u1 wf).sKept from (show (0 : Fin 2) ∈ ([0, 1] : List (Fin 2)) from by decide))]
  rfl

theorem windowDims_window1 : (windowDims s0 s1 u0 u1 wf).window j 1 = (j 1).val := by
  unfold ScatterDims.window
  rw [dif_pos (show (1 : Fin 2) ∈ (windowDims s0 s1 u0 u1 wf).sKept from (show (1 : Fin 2) ∈ ([0, 1] : List (Fin 2)) from by decide))]
  rfl

/-- Update element `j` of a window whose index vector reads `(o0, o1)` lands on `i` exactly when `i = (o0, o1) + j`. -/
theorem windowDims_resultIdx?_iff (o0 o1 : Nat) (h0 : (idx (ix1 (0 : Fin 2))).toInt = o0) (h1 : (idx (ix1 (1 : Fin 2))).toInt = o1)
    (i : (⟨2, ![s0, s1]⟩ : Shape).Idx) :
    (windowDims s0 s1 u0 u1 wf).resultIdx? j idx = some i ↔ (i 0).val = o0 + (j 0).val ∧ (i 1).val = o1 + (j 1).val := by
  rw [resultIdx?_eq_some_iff]
  constructor
  · intro h
    have e0 := h 0
    have e1 := h 1
    rw [windowDims_start0, windowDims_window0, h0] at e0
    rw [windowDims_start1, windowDims_window1, h1] at e1
    exact ⟨by omega, by omega⟩
  · rintro ⟨e0, e1⟩ a
    match a with
    | ⟨0, _⟩ =>
      show (((i 0).val : Nat) : Int) = (windowDims s0 s1 u0 u1 wf).start j idx 0 + (windowDims s0 s1 u0 u1 wf).window j 0
      rw [windowDims_start0, windowDims_window0, h0]; omega
    | ⟨1, _⟩ =>
      show (((i 1).val : Nat) : Int) = (windowDims s0 s1 u0 u1 wf).start j idx 1 + (windowDims s0 s1 u0 u1 wf).window j 1
      rw [windowDims_start1, windowDims_window1, h1]; omega

end Window

section WindowRead
variable {α : Type} {s0 s1 u0 u1 w : Nat} (wf : ScatterDims.WF ⟨2, ![s0, s1]⟩ ⟨1, ![2]⟩ ⟨2, ![u0, u1]⟩ [0, 1] [] [0, 1] 0)
  (x : (⟨2, ![s0, s1]⟩ : Shape).Idx → α) (idx : IVec ⟨1, ![2]⟩ w) (upd : (⟨2, ![u0, u1]⟩ : Shape).Idx → α)
  (o0 o1 : Nat) (h0 : (idx (ix1 (0 : Fin 2))).toInt = o0) (h1 : (idx (ix1 (1 : Fin 2))).toInt = o1)

include h0 h1 in
/-- Inside the window the written array reads the update, at the index less the offsets. -/
theorem scatter_window_apply_in (i : (⟨2, ![s0, s1]⟩ : Shape).Idx) (r : Fin u0) (q : Fin u1)
    (hi0 : (i 0).val = o0 + r.val) (hi1 : (i 1).val = o1 + q.val) :
    Host.scatter (windowDims s0 s1 u0 u1 wf) (fun _ b => b) x idx upd i = upd (ix2 r q) := by
  refine scatter_set_apply _ x idx upd i _ (Or.inr ⟨ix2 r q, ?_⟩) ?_
  · exact (windowDims_resultIdx?_iff wf (ix2 r q) idx o0 o1 h0 h1 i).2 ⟨hi0, hi1⟩
  · intro j hj
    have h := (windowDims_resultIdx?_iff wf j idx o0 o1 h0 h1 i).1 hj
    have a0 : j 0 = r := Fin.ext (by have := h.1; omega)
    have a1 : j 1 = q := Fin.ext (by have := h.2; omega)
    have ej : j = ix2 r q := by
      funext a
      match a with
      | ⟨0, _⟩ => exact a0
      | ⟨1, _⟩ => exact a1
    rw [ej]

include h0 h1 in
/-- Outside the window the written array reads the operand. -/
theorem scatter_window_apply_out (i : (⟨2, ![s0, s1]⟩ : Shape).Idx)
    (hout : ¬((o0 ≤ (i 0).val ∧ (i 0).val < o0 + u0) ∧ (o1 ≤ (i 1).val ∧ (i 1).val < o1 + u1))) :
    Host.scatter (windowDims s0 s1 u0 u1 wf) (fun _ b => b) x idx upd i = x i := by
  refine scatter_set_apply _ x idx upd i _ (Or.inl rfl) ?_
  intro j hj
  have h := (windowDims_resultIdx?_iff wf j idx o0 o1 h0 h1 i).1 hj
  have := idx2_lt0 j
  have := idx2_lt1 j
  exact absurd ⟨⟨by omega, by omega⟩, ⟨by omega, by omega⟩⟩ hout

end WindowRead

end Cert.Lib.ScatterSet

end
-- ==== Proof.PadClassifier.lean ====
/-
  A window written at column offset 0 into a wider array reads, inside the window, the update.

  The classifier's weights (128 x 40) and bias (1 x 40) are written into zero arrays of 128 columns by a scatter
  whose two update axes are both window axes, whose index vector (of length one) names the start on the column axis
  only, and whose combining function returns the update.  The row axis is not named by the index vector, so its start
  is 0; the column start is the index vector's one entry, here 0.  Update element (r, q) therefore lands on (r, q), so
  the written array at (k, c) with c < 40 reads the update at (k, c).
-/
import proofs.«118277_j74345883894183_2_alg».proof.Proof.Gen.KernelIdeal
import proofs.«118277_j74345883894183_2_alg».proof.Proof.LibScatterSet
import Idealize.ShloMosaic.Lib.ValueIdx

noncomputable section

namespace Cert.Sage.Pad

open Idealize.ShloMosaic Idealize.ShloMosaic.ValueIdx Cert.KernelIdeal

/-- The dimension numbers of a rank-2 window write whose index vector names the column start only. -/
abbrev colDims (s0 s1 u0 u1 : Nat) (wf : ScatterDims.WF ⟨2, ![s0, s1]⟩ ⟨1, ![1]⟩ ⟨2, ![u0, u1]⟩ [0, 1] [] [1] 0) :
    ScatterDims ⟨2, ![s0, s1]⟩ ⟨1, ![1]⟩ ⟨2, ![u0, u1]⟩ where
  updateWindowDims := [0, 1]
  insertedWindowDims := []
  scatterDimsToOperandDims := [1]
  indexVectorDim := 0
  wf := wf

section Col
variable {s0 s1 u0 u1 w : Nat} (wf : ScatterDims.WF ⟨2, ![s0, s1]⟩ ⟨1, ![1]⟩ ⟨2, ![u0, u1]⟩ [0, 1] [] [1] 0)
  (j : (⟨2, ![u0, u1]⟩ : Shape).Idx) (idx : IVec ⟨1, ![1]⟩ w)

/-- The row axis is not named by the index vector: its start is 0. -/
theorem colDims_start0 : (colDims s0 s1 u0 u1 wf).start j idx 0 = 0 := by
  unfold ScatterDims.start
  rw [dif_neg (show ¬ (0 : Fin 2) ∈ ([1] : List (Fin 2)) from by decide)]

/-- The column start is the index vector's one entry. -/
theorem colDims_start1 : (colDims s0 s1 u0 u1 wf).start j idx 1 = (idx (ix1 (0 : Fin 1))).toInt := by
  unfold ScatterDims.start
  rw [dif_pos (show (1 : Fin 2) ∈ ([1] : List (Fin 2)) from by decide)]
  refine congrArg (fun k => (idx k).toInt) (funext fun b => ?_)
  match b with | ⟨0, _⟩ => rfl

theorem colDims_window0 : (colDims s0 s1 u0 u1 wf).window j 0 = (j 0).val := by
  unfold ScatterDims.window
  rw [dif_pos (show (0 : Fin 2) ∈ (colDims s0 s1 u0 u1 wf).sKept from (show (0 : Fin 2) ∈ ([0, 1] : List (Fin 2)) from by decide))]
  rfl

theorem colDims_window1 : (colDims s0 s1 u0 u1 wf).window j 1 = (j 1).val := by
  unfold ScatterDims.window
  rw [dif_pos (show (1 : Fin 2) ∈ (colDims s0 s1 u0 u1 wf).sKept from (show (1 : Fin 2) ∈ ([0, 1] : List (Fin 2)) from by decide))]
  rfl

/-- With the column start 0, update element `j` lands on `i` exactly when `i` has `j`'s coordinates. -/
theorem colDims_resultIdx?_iff (h0 : idx (ix1 (0 : Fin 1)) = 0#w) (i : (⟨2, ![s0, s1]⟩ : Shape).Idx) :
    (colDims s0 s1 u0 u1 wf).resultIdx? j idx = some i ↔ (i 0).val = (j 0).val ∧ (i 1).val = (j 1).val := by
  have hz : (idx (ix1 (0 : Fin 1))).toInt = 0 := by rw [h0]; exact BitVec.toInt_zero
  rw [Cert.Lib.ScatterSet.resultIdx?_eq_some_iff]
  constructor
  · intro h
    have e0 := h 0
    have e1 := h 1
    rw [colDims_start0, colDims_window0] at e0
    rw [colDims_start1, colDims_window1, hz] at e1
    exact ⟨by omega, by omega⟩
  · rintro ⟨e0, e1⟩ a
    match a with
    | ⟨0, _⟩ =>
      show (((i 0).val : Nat) : Int) = (colDims s0 s1 u0 u1 wf).start j idx 0 + (colDims s0 s1 u0 u1 wf).window j 0
      rw [colDims_start0, colDims_window0]; omega
    | ⟨1, _⟩ =>
      show (((i 1).val : Nat) : Int) = (colDims s0 s1 u0 u1 wf).start j idx 1 + (colDims s0 s1 u0 u1 wf).window j 1
      rw [colDims_start1, colDims_window1, hz]; omega

end Col

/-- Inside the window the written array reads the update at the same coordinates. -/
theorem colDims_scatter_apply {α : Type} {s0 s1 u0 u1 w : Nat}
    (wf : ScatterDims.WF ⟨2, ![s0, s1]⟩ ⟨1, ![1]⟩ ⟨2, ![u0, u1]⟩ [0, 1] [] [1] 0)
    (x : (⟨2, ![s0, s1]⟩ : Shape).Idx → α) (idx : IVec ⟨1, ![1]⟩ w) (h0 : idx (ix1 (0 : Fin 1)) = 0#w)
    (upd : (⟨2, ![u0, u1]⟩ : Shape).Idx → α) (i : (⟨2, ![s0, s1]⟩ : Shape).Idx) (r : Fin u0) (q : Fin u1)
    (hi0 : (i 0).val = r.val) (hi1 : (i 1).val = q.val) :
    Host.scatter (colDims s0 s1 u0 u1 wf) (fun _ b => b) x idx upd i = upd (ix2 r q) := by
  refine Cert.Lib.ScatterSet.scatter_set_apply _ x idx upd i _ (Or.inr ⟨ix2 r q, ?_⟩) ?_
  · exact (colDims_resultIdx?_iff wf (ix2 r q) idx h0 i).2 ⟨hi0, hi1⟩
  · intro j hj
    have h := (colDims_resultIdx?_iff wf j idx h0 i).1 hj
    have a0 : j 0 = r := Fin.ext (by have := h.1; omega)
    have a1 : j 1 = q := Fin.ext (by have := h.2; omega)
    have ej : j = ix2 r q := by
      funext a
      match a with
      | ⟨0, _⟩ => exact a0
      | ⟨1, _⟩ => exact a1
    rw [ej]

/-- The padded classifier weights read, in the first 40 columns, the unpadded weights. -/
theorem padW_apply {α : Type} (x : S128x128.Idx → α) (idx : IVec S1 32) (hidx : idx (ix1 (0 : Fin 1)) = 0#32)
    (upd : S128x40.Idx → α) (k : Fin 128) (c : Fin 40) :
    Host.scatter scatter_S128x128_S1_S128x40_01_n_1_0 (fun _ b => b) x idx upd
        (ix2 k (Fin.castLE (by decide : 40 ≤ 128) c)) = upd (ix2 k c) :=
  colDims_scatter_apply (s0 := 128) (s1 := 128) (u0 := 128) (u1 := 40) scatter_S128x128_S1_S128x40_01_n_1_0.wf
    x idx hidx upd (ix2 k (Fin.castLE (by decide : 40 ≤ 128) c)) k c rfl rfl

/-- The padded classifier bias reads, in the first 40 columns, the unpadded bias. -/
theorem padB_apply {α : Type} (x : S1x128.Idx → α) (idx : IVec S1 32) (hidx : idx (ix1 (0 : Fin 1)) = 0#32)
    (upd : S1x40.Idx → α) (c : Fin 40) :
    Host.scatter scatter_S1x128_S1_S1x40_01_n_1_0 (fun _ b => b) x idx upd
        (ix2 (0 : Fin 1) (Fin.castLE (by decide : 40 ≤ 128) c)) = upd (ix2 (0 : Fin 1) c) :=
  colDims_scatter_apply (s0 := 1) (s1 := 128) (u0 := 1) (u1 := 40) scatter_S1x128_S1_S1x40_01_n_1_0.wf
    x idx hidx upd (ix2 (0 : Fin 1) (Fin.castLE (by decide : 40 ≤ 128) c)) 0 c rfl rfl

end Cert.Sage.Pad

end
-- ==== Proof.Glue.lean ====
/-
  The kernel keeps the reciprocal degree as a column and each bias as a row by a reshape; the reference does so by a
  broadcast along the kept axis.  As whole arrays the two agree: at (i, 0), respectively (0, i), both read the vector
  at i.  The kernel's final cut to the first 40 columns reads the source at the same coordinates.
-/
import proofs.«118277_j74345883894183_2_alg».proof.Proof.Gen.KernelIdeal
import proofs.«118277_j74345883894183_2_alg».proof.Proof.Gen.ReferenceIdeal
import proofs.«118277_j74345883894183_2_alg».proof.Proof.LibKeepdims
import Idealize.ShloMosaic.Lib.ValueLayout
import Idealize.ShloMosaic.Lib.Pipeline.Value
import Idealize.ShloMosaic.Lib.ValueIdx

noncomputable section

namespace Cert.Sage.Glue

open Idealize.ShloMosaic Idealize.ShloMosaic.ValueIdx

variable {α : Type}

/-- A vector of 100000 entries cast to a column is the vector broadcast along axis 0 into a column. -/
theorem col_eq (v : Cert.KernelIdeal.S100000.Idx → α) :
    shapeCast Cert.KernelIdeal.S100000x1 v Cert.KernelIdeal.Facts₀.shapeCasts_S100000_S100000x1
      = broadcastInDim Cert.ReferenceIdeal.S100000x1 ![0] Cert.ReferenceIdeal.Facts₀.bcast_S100000_S100000x1_0 v := by
  funext i
  obtain ⟨p, u, rfl⟩ : ∃ (p : Fin 100000) (u : Fin 1), i = ix2 p u := ⟨i 0, i 1, eq_ix2 i⟩
  refine (Cert.Lib.Keepdims.shapeCast_a_a1_apply v _ p u).trans ?_
  refine (broadcastInDim_apply _ Cert.ReferenceIdeal.Facts₀.bcast_S100000_S100000x1_0 v (ix2 p u) (ix1 p) fun a => ?_).symm
  match a with
  | ⟨0, _⟩ => show p.val = if (100000 : Nat) = 1 then 0 else p.val; rw [if_neg (by decide)]

/-- A vector of 128 entries cast to a row is the vector broadcast along axis 1 into a row. -/
theorem row_eq (v : Cert.KernelIdeal.S128.Idx → α) :
    shapeCast Cert.KernelIdeal.S1x128 v Cert.KernelIdeal.Facts₀.shapeCasts_S128_S1x128
      = broadcastInDim Cert.ReferenceIdeal.S1x128 ![1] Cert.ReferenceIdeal.Facts₀.bcast_S128_S1x128_1 v := by
  funext i
  obtain ⟨u, c, rfl⟩ : ∃ (u : Fin 1) (c : Fin 128), i = ix2 u c := ⟨i 0, i 1, eq_ix2 i⟩
  refine (shapeCast_a_1a_apply v _ u c).trans ?_
  refine (broadcastInDim_apply _ Cert.ReferenceIdeal.Facts₀.bcast_S128_S1x128_1 v (ix2 u c) (ix1 c) fun a => ?_).symm
  match a with
  | ⟨0, _⟩ => show c.val = if (128 : Nat) = 1 then 0 else c.val; rw [if_neg (by decide)]

/-- A vector of 40 entries cast to a row is the vector broadcast along axis 1 into a row. -/
theorem row40_eq (v : Cert.KernelIdeal.S40.Idx → α) :
    shapeCast Cert.KernelIdeal.S1x40 v Cert.KernelIdeal.Facts₀.shapeCasts_S40_S1x40
      = broadcastInDim Cert.ReferenceIdeal.S1x40 ![1] Cert.ReferenceIdeal.Facts₀.bcast_S40_S1x40_1 v := by
  funext i
  obtain ⟨u, c, rfl⟩ : ∃ (u : Fin 1) (c : Fin 40), i = ix2 u c := ⟨i 0, i 1, eq_ix2 i⟩
  refine (shapeCast_a_1a_apply v _ u c).trans ?_
  refine (broadcastInDim_apply _ Cert.ReferenceIdeal.Facts₀.bcast_S40_S1x40_1 v (ix2 u c) (ix1 c) fun a => ?_).symm
  match a with
  | ⟨0, _⟩ => show c.val = if (40 : Nat) = 1 then 0 else c.val; rw [if_neg (by decide)]

/-- The cut to the first 40 columns reads, at (p, c), the source at (p, c). -/
theorem slice40_apply (X : Cert.KernelIdeal.S100000x128.Idx → α) (p : Fin 100000) (c : Fin 40) :
    extractStridedSlice Cert.KernelIdeal.S100000x40 ![0, 0] X Cert.KernelIdeal.Facts₀.slices_S100000x128_S100000x40_0_0 (ix2 p c)
      = X (ix2 p (Fin.castLE (by decide : 40 ≤ 128) c)) :=
  slice2_axis1_apply 0 X Cert.KernelIdeal.Facts₀.slices_S100000x128_S100000x40_0_0 p c (Fin.castLE (by decide : 40 ≤ 128) c)
    (Nat.zero_add _).symm

end Cert.Sage.Glue

end
-- ==== Proof.KernelResult.lean ====
/-
  The idealized kernel's result array is the reference's function of the arguments.

  Walking the fold of buffer contents back from the result: the result is the first 40 columns of the second
  pipeline's output; that output is the classifier applied to the second hidden array, with weights and bias zero-padded
  to 128 columns; the second hidden array is one layer applied to the neighbour sum of the first hidden array, the first
  hidden array itself, the reciprocal-degree column, and the second layer's transposed weights and bias row; the first
  hidden array, left by the first pipeline, is one layer applied to the neighbour sum of the features, the features,
  the same column and the first layer's weights and bias.  Every host-made operand is the reference's own stage of the
  arguments, so the layers' arguments coincide one by one, and the zero padding drops out because only the first 40
  columns are kept.
-/
import proofs.«118277_j74345883894183_2_alg».proof.Proof.KernelIdealFrameP
import proofs.«118277_j74345883894183_2_alg».proof.Proof.HostReads
import proofs.«118277_j74345883894183_2_alg».proof.Proof.KernelArrays
import proofs.«118277_j74345883894183_2_alg».proof.Proof.RefLayers
import proofs.«118277_j74345883894183_2_alg».proof.Proof.PadClassifier
import proofs.«118277_j74345883894183_2_alg».proof.Proof.Glue
import proofs.«118277_j74345883894183_2_alg».proof.Proof.Spec

noncomputable section

namespace Cert.Sage.Result

open Idealize.ShloMosaic Idealize.ShloMosaic.TcCoe Idealize.ShloMosaic.ValueIdx Idealize.SL.Sem Idealize.ShloMosaic.StableHlo
open Cert.KernelIdeal Cert.KernelIdeal.Gen Cert.KernelIdeal.GenP
open Cert.ReferenceIdeal.Read (val_main_v1 val_main_v3 val_main_v11 val_main_v21 val_main_v22 val_main_v25 val_main_v27
  val_main_v30 val_main_v33 val_main_v43 val_main_v44 val_main_v47 val_main_v49 val_main_v52 val_main_v55 val_main_v56
  val_main_v58 val_main_v60)
open Cert.Sage.Reads

variable (m : (ℓ : Loc nD τ sig) → Buf (Elt Ideal) ℓ) (ρ : Dev nD → PrngReg) (c : Dev nD)

/-- The argument arrays as launched. -/
abbrev A0 := m ((c : Thread nD τ).loc main_arg0)
abbrev A1 := m ((c : Thread nD τ).loc main_arg1)
abbrev A2 := m ((c : Thread nD τ).loc main_arg2)
abbrev A3 := m ((c : Thread nD τ).loc main_arg3)
abbrev A4 := m ((c : Thread nD τ).loc main_arg4)
abbrev A5 := m ((c : Thread nD τ).loc main_arg5)
abbrev A6 := m ((c : Thread nD τ).loc main_arg6)
abbrev A7 := m ((c : Thread nD τ).loc main_arg7)
abbrev A8 := m ((c : Thread nD τ).loc main_arg8)
abbrev A9 := m ((c : Thread nD τ).loc main_arg9)

/-! ## What the first pipeline finds -/

theorem V1_v36 : V1 m ρ c main_v36 = val_main_v21 (F := Ideal) (A0 m c) (A1 m c) :=
  (pre_v36 (W0 m ρ c)).trans (aggOf_arg _ _)

theorem V1_arg0 : V1 m ρ c main_arg0 = A0 m c := pre_arg0 (W0 m ρ c)

theorem V1_v12 : V1 m ρ c main_v12 = val_main_v22 (F := Ideal) (A1 m c) :=
  (pre_v12 (W0 m ρ c)).trans (Cert.Sage.Glue.col_eq _)

theorem V1_v13 : V1 m ρ c main_v13 = val_main_v25 (F := Ideal) (A2 m c) := pre_v13 (W0 m ρ c)

theorem V1_v14 : V1 m ρ c main_v14 = val_main_v30 (F := Ideal) (A4 m c) := pre_v14 (W0 m ρ c)

theorem V1_v25 : V1 m ρ c main_v25 = val_main_v27 (F := Ideal) (A3 m c) :=
  (pre_v25 (W0 m ρ c)).trans (Cert.Sage.Glue.row_eq _)

/-! ## What the first pipeline leaves -/

/-- The first hidden array. -/
theorem W2_v37 : W2 m ρ c (Proc.devRef .tc main_v37)
    = val_main_v33 (F := Ideal) (A0 m c) (A1 m c) (A2 m c) (A3 m c) (A4 m c) := by
  refine (W2_arr m ρ c 6).trans ?_
  rw [Cert.Sage.Arrays.final0 (V1 m ρ) c, V1_v36, V1_arg0, V1_v12, V1_v13, V1_v14, V1_v25]
  exact (Cert.Sage.Ref.hidden0_eq _ _ _ _ _).symm

/-- The degree column is an input of the first pipeline: it is left as found. -/
theorem W2_v12 : W2 m ρ c (Proc.devRef .tc main_v12) = val_main_v22 (F := Ideal) (A1 m c) :=
  ((W2_arr m ρ c 2).trans (((dat0 (V1 m ρ) c).arrAt_in 2 rfl _).trans (A_eq0 (V1 m ρ) c 2))).trans (V1_v12 m ρ c)

/-- A buffer that is none of the first pipeline's arrays is left as found. -/
theorem W2_other (b : Ref sig .tc) (hb : ∀ w, Pipeline.arrRef spec0 w ≠ b) :
    W2 m ρ c (Proc.devRef .tc b) = after hostOps0 (W0 m ρ c) (Proc.devRef .tc b) :=
  W2_of_ne m ρ c b hb

/-! ## What the second pipeline finds -/

theorem V3_v37 : V3 m ρ c main_v37 = val_main_v33 (F := Ideal) (A0 m c) (A1 m c) (A2 m c) (A3 m c) (A4 m c) :=
  (mid_kept (W2 m ρ c) main_v37 (Or.inl rfl)).trans (W2_v37 m ρ c)

theorem V3_v12 : V3 m ρ c main_v12 = val_main_v44 (F := Ideal) (A1 m c) :=
  (mid_kept (W2 m ρ c) main_v12 (Or.inr (Or.inl rfl))).trans (W2_v12 m ρ c)

theorem V3_v15 : V3 m ρ c main_v15 = val_main_v47 (F := Ideal) (A5 m c) :=
  (mid_kept (W2 m ρ c) main_v15 (Or.inr (Or.inr (Or.inl rfl)))).trans
    ((W2_other m ρ c main_v15 (by decide)).trans (pre_v15 (W0 m ρ c)))

theorem V3_v16 : V3 m ρ c main_v16 = val_main_v52 (F := Ideal) (A7 m c) :=
  (mid_kept (W2 m ρ c) main_v16 (Or.inr (Or.inr (Or.inr (Or.inl rfl))))).trans
    ((W2_other m ρ c main_v16 (by decide)).trans (pre_v16 (W0 m ρ c)))

theorem V3_v26 : V3 m ρ c main_v26 = val_main_v49 (F := Ideal) (A6 m c) :=
  (mid_kept (W2 m ρ c) main_v26 (Or.inr (Or.inr (Or.inr (Or.inr (Or.inl rfl)))))).trans
    ((W2_other m ρ c main_v26 (by decide)).trans ((pre_v26 (W0 m ρ c)).trans (Cert.Sage.Glue.row_eq _)))

theorem V3_v20 : V3 m ρ c main_v20 = padW (val_main_v56 (F := Ideal) (A8 m c)) :=
  (mid_kept (W2 m ρ c) main_v20 (Or.inr (Or.inr (Or.inr (Or.inr (Or.inr (Or.inl rfl))))))).trans
    ((W2_other m ρ c main_v20 (by decide)).trans (pre_v20 (W0 m ρ c)))

theorem V3_v24 : V3 m ρ c main_v24 = padB (shapeCast S1x40 (A9 m c) shapeCasts_S40_S1x40) :=
  (mid_kept (W2 m ρ c) main_v24 (Or.inr (Or.inr (Or.inr (Or.inr (Or.inr (Or.inr rfl))))))).trans
    ((W2_other m ρ c main_v24 (by decide)).trans (pre_v24 (W0 m ρ c)))

/-- The neighbour sum of the first hidden array is the reference's stage. -/
theorem aggOf_hidden (x0 : (⟨S100000x128, .f32⟩ : BufTy).Contents (Elt Ideal)) (x1 : (⟨S2x1600000, .i32⟩ : BufTy).Contents (Elt Ideal))
    (x2 x4 : (⟨S128x128, .f32⟩ : BufTy).Contents (Elt Ideal)) (x3 : (⟨S128, .f32⟩ : BufTy).Contents (Elt Ideal)) :
    aggOf (val_main_v33 (F := Ideal) x0 x1 x2 x3 x4) (val_main_v1 (F := Ideal) x1) (val_main_v3 (F := Ideal) x1)
      = val_main_v43 (F := Ideal) x0 x1 x2 x3 x4 := rfl

theorem V3_v47 : V3 m ρ c main_v47 = val_main_v43 (F := Ideal) (A0 m c) (A1 m c) (A2 m c) (A3 m c) (A4 m c) := by
  refine (mid_v47 (W2 m ρ c)).trans ?_
  rw [W2_v37, W2_other m ρ c main_v1 (by decide), W2_other m ρ c main_v3 (by decide), pre_v1, pre_v3]
  exact aggOf_hidden _ _ _ _ _

/-! ## What the second pipeline leaves, and the result -/

/-- The second pipeline's output: the padded classifier of the second hidden array. -/
theorem W4_v48 : W4 m ρ c (Proc.devRef .tc main_v48)
    = Cert.Sage.logits (C := 128)
        (val_main_v55 (F := Ideal) (A0 m c) (A1 m c) (A2 m c) (A3 m c) (A4 m c) (A5 m c) (A6 m c) (A7 m c))
        (padW (val_main_v56 (F := Ideal) (A8 m c))) (padB (shapeCast S1x40 (A9 m c) shapeCasts_S40_S1x40)) := by
  refine (W4_arr m ρ c 8).trans ?_
  rw [Cert.Sage.Arrays.final1 (V3 m ρ) c, V3_v47, V3_v37, V3_v12, V3_v15, V3_v16, V3_v26, V3_v20, V3_v24,
    ← Cert.Sage.Ref.hidden1_eq]

/-- THE RESULT: after the run the result buffer holds the reference's function of the argument arrays. -/
theorem result : W5 m ρ c (Proc.devRef .tc main_v49)
    = val_main_v60 (F := Ideal) (A0 m c) (A1 m c) (A2 m c) (A3 m c) (A4 m c) (A5 m c) (A6 m c) (A7 m c) (A8 m c) (A9 m c) := by
  refine (post_v49 (W4 m ρ c)).trans ?_
  rw [W4_v48, Cert.Sage.Ref.logits_eq]
  funext i
  obtain ⟨p, q, rfl⟩ : ∃ (p : Fin 100000) (q : Fin 40), i = ix2 p q := ⟨i 0, i 1, eq_ix2 i⟩
  rw [Cert.Sage.Glue.slice40_apply, Cert.Sage.logits_apply, Cert.Sage.logits_apply]
  exact Cert.Sage.logitsAt_padded (by decide) _ _ _ _ _
    (fun k c' => Cert.Sage.Pad.padW_apply _ _ rfl _ k c')
    (fun c' => (Cert.Sage.Pad.padB_apply _ _ rfl _ c').trans (congrFun (Cert.Sage.Glue.row40_eq _) _)) p q

end Cert.Sage.Result

end
-- ==== Proof.lean ====
/-
  The certificate: a two-layer mean-aggregation graph network with a linear classifier, computed by a kernel of two
  row-blocked pipelines among host operations, against its plain reference.

  Both programs form, from the same arguments, the reciprocal clamped in-degree of every node and the sum over incoming
  edges of the source rows, and apply twice the layer

      h(p, c) = max ((Σ_k (A(p,k) · d(p)) · Wl(c,k)) + (Σ_k X(p,k) · Wr(c,k)) + b(c)) 0,

  then the classifier Σ_k h(p,k) · Wc(c,k) + bc(c).  The kernel computes each layer 5000 rows at a time, adds the bias
  after the root product where the reference adds it before, holds the degree as a column and the biases as rows, and
  pads the classifier to 128 columns of which it keeps the first 40.  On the extended reals these are the same
  function: sums and additions reorder freely, a change of float format is the identity, and the padding's columns
  are never read.  No finiteness of the inputs is used.

  The three frames: the two kernels' by the frame modules (every pipeline body run symbolically, the host stretches
  folded), the reference's by its run.  The idealization rewrote nothing, so `preserves` is trivial.  The algebraic
  claim pairs the kernel's run, whose result buffer ends at the fold of its five segments, with the reference's run,
  whose result is its composed stage; the two are equal as arrays.
-/
import proofs.«118277_j74345883894183_2_alg».proof.Defs
import proofs.«118277_j74345883894183_2_alg».proof.Proof.Gen.Kernel
import proofs.«118277_j74345883894183_2_alg».proof.Proof.Gen.Kernel.Skeleton
import proofs.«118277_j74345883894183_2_alg».proof.Proof.KernelLaunchP
import proofs.«118277_j74345883894183_2_alg».proof.Proof.Gen.Kernel.Points
import proofs.«118277_j74345883894183_2_alg».proof.Proof.KernelFrameP
import proofs.«118277_j74345883894183_2_alg».proof.Proof.Gen.KernelIdeal
import proofs.«118277_j74345883894183_2_alg».proof.Proof.Gen.KernelIdeal.Skeleton
import proofs.«118277_j74345883894183_2_alg».proof.Proof.KernelIdealLaunchP
import proofs.«118277_j74345883894183_2_alg».proof.Proof.Gen.KernelIdeal.Points
import proofs.«118277_j74345883894183_2_alg».proof.Proof.KernelIdealFrameP
import proofs.«118277_j74345883894183_2_alg».proof.Proof.Gen.ReferenceIdeal
import proofs.«118277_j74345883894183_2_alg».proof.Proof.Gen.Pre_finite_inputs
import proofs.«118277_j74345883894183_2_alg».proof.Proof.Gen.ReferenceIdeal.Run
import proofs.«118277_j74345883894183_2_alg».proof.Proof.Gen.ReferenceIdeal.Read
import proofs.«118277_j74345883894183_2_alg».proof.Proof.KernelRun
import proofs.«118277_j74345883894183_2_alg».proof.Proof.KernelResult
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel (hKernel := Cert.Kernel.Gen.facts) (hPre_finite_inputs := Cert.Pre_finite_inputs.Gen.facts) :=
  fun m ρ _ => Cert.Kernel.GenP.frame m ρ

/-- So does the idealized kernel. -/
theorem frame_kernelIdeal : Cert.frame_KernelIdeal (hKernelIdeal := Cert.KernelIdeal.Gen.facts) (hPre_finite_inputs := Cert.Pre_finite_inputs.Gen.facts) :=
  fun m ρ _ => Cert.KernelIdeal.GenP.frame m ρ

/-- The reference's frame is its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Run from memories that agree on the arguments, the two idealized programs end with equal result arrays: the
    kernel's result buffer holds the fold of its segments, which is the reference's stage function of the arguments
    (`Cert.Sage.Result.result`), and the reference's holds that same function of its own, equal, arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.GenP.W5 m ρ c (Proc.devRef .tc Cert.KernelIdeal.main_v49), ?_, ?_⟩
  · refine (θ_run Cert.KernelIdeal.defs _ _).mono (fun r h c => ?_) (Cert.Sage.Run.run_boundary (F := Ideal) m ρ)
    exact ⟨Cert.Sage.Run.read_final m ρ h c Cert.KernelIdeal.main_v49 (by decide),
      (Cert.Sage.Run.read_final m ρ h c Cert.KernelIdeal.main_arg0 (by decide)).trans (Cert.KernelIdeal.GenP.W5_main_arg0 m ρ c),
      (Cert.Sage.Run.read_final m ρ h c Cert.KernelIdeal.main_arg1 (by decide)).trans (Cert.KernelIdeal.GenP.W5_main_arg1 m ρ c),
      (Cert.Sage.Run.read_final m ρ h c Cert.KernelIdeal.main_arg2 (by decide)).trans (Cert.KernelIdeal.GenP.W5_main_arg2 m ρ c),
      (Cert.Sage.Run.read_final m ρ h c Cert.KernelIdeal.main_arg3 (by decide)).trans (Cert.KernelIdeal.GenP.W5_main_arg3 m ρ c),
      (Cert.Sage.Run.read_final m ρ h c Cert.KernelIdeal.main_arg4 (by decide)).trans (Cert.KernelIdeal.GenP.W5_main_arg4 m ρ c),
      (Cert.Sage.Run.read_final m ρ h c Cert.KernelIdeal.main_arg5 (by decide)).trans (Cert.KernelIdeal.GenP.W5_main_arg5 m ρ c),
      (Cert.Sage.Run.read_final m ρ h c Cert.KernelIdeal.main_arg6 (by decide)).trans (Cert.KernelIdeal.GenP.W5_main_arg6 m ρ c),
      (Cert.Sage.Run.read_final m ρ h c Cert.KernelIdeal.main_arg7 (by decide)).trans (Cert.KernelIdeal.GenP.W5_main_arg7 m ρ c),
      (Cert.Sage.Run.read_final m ρ h c Cert.KernelIdeal.main_arg8 (by decide)).trans (Cert.KernelIdeal.GenP.W5_main_arg8 m ρ c),
      (Cert.Sage.Run.read_final m ρ h c Cert.KernelIdeal.main_arg9 (by decide)).trans (Cert.KernelIdeal.GenP.W5_main_arg9 m ρ c)⟩
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9⟩ := hagree c
    rw [Cert.ReferenceIdeal.Read.val_main_v60_eq, e0, e1, e2, e3, e4, e5, e6, e7, e8, e9]
    exact (Cert.Sage.Result.result m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
